-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x200x128 : Shape := ⟨3, ![512, 200, 128]⟩
abbrev S512x200x200 : Shape := ⟨3, ![512, 200, 200]⟩
abbrev S128 : Shape := ⟨1, ![128]⟩
abbrev S_ : Shape := ⟨0, ![]⟩

class Facts : Prop where
  bcast_S_S512x200x128 : S_.BroadcastsInDim S512x200x128 (![] : Fin 0 → Fin S512x200x128.rank)
  reducesTo_S512x200x128_S_d0_1_2 : S512x200x128.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S512x200x128 .f32) (main_arg1 : IVec S512x200x200 32) (main_arg2 : FVec F S128 .f32) (main_arg3 : FVec F S128 .f32) (main_arg4 : FVec F S128 .f32) (main_arg5 : FVec F S128 .f32) : IVec S_ 1 :=
  let main_v0 : FVec F S512x200x128 .f32 := Host.absf main_arg0
  let main_cst : FVec F S_ .f32 := constant S_ .f32 0x7F800000#32
  let main_v1 : FVec F S512x200x128 .f32 := broadcastInDim S512x200x128 ![] bcast_S_S512x200x128 main_cst
  let main_v2 : IVec S512x200x128 1 := cmpf .olt main_v0 main_v1
  let main_c : IVec S_ 1 := constantI S_ 1 1#1
  let main_v3 : IVec S_ 1 := (fun x v => Host.reduce IntOp.andi x v reducesTo_S512x200x128_S_d0_1_2 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S512x200x128 : Shape := ⟨3, ![512, 200, 128]⟩
abbrev S512x200x200 : Shape := ⟨3, ![512, 200, 200]⟩
abbrev S128 : Shape := ⟨1, ![128]⟩
abbrev S16x200x128 : Shape := ⟨3, ![16, 200, 128]⟩
abbrev S16x200x200 : Shape := ⟨3, ![16, 200, 200]⟩
abbrev S1x1x128 : Shape := ⟨3, ![1, 1, 128]⟩
abbrev S16x200 : Shape := ⟨2, ![16, 200]⟩
abbrev S16x200x1 : Shape := ⟨3, ![16, 200, 1]⟩

abbrev nBuf : Space → Nat
  | .hbm => 7
  | .vmem => 10
  | .smem => 0
  | _ => 0

abbrev bufTy : (tb : Table) → Fin (tcTables nBuf tb) → BufTy
  | .hbm, ⟨0, _⟩ => ⟨S512x200x128, .f32⟩
  | .hbm, ⟨1, _⟩ => ⟨S512x200x200, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S512x200x128, .f32⟩
  | .local _ .vmem, ⟨0, _⟩ => ⟨S16x200x128, .f32⟩
  | .local _ .vmem, ⟨1, _⟩ => ⟨S16x200x128, .f32⟩
  | .local _ .vmem, ⟨2, _⟩ => ⟨S16x200x200, .i32⟩
  | .local _ .vmem, ⟨3, _⟩ => ⟨S16x200x200, .i32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S16x200x128, .f32⟩
  | .local _ .vmem, ⟨9, _⟩ => ⟨S16x200x128, .f32⟩
  | _, _ => ⟨S512x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x200x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S16x200x128_S16x200x128_0_0_0 : ∀ a, (![0, 0, 0] : Fin 3 → Nat) a + S16x200x128.size a ≤ S16x200x128.size a
  h_S16x200x128 : 0 < S16x200x128.numel
  inb_S16x200x200_S16x200x200_0_0_0 : ∀ a, (![0, 0, 0] : Fin 3 → Nat) a + S16x200x200.size a ≤ S16x200x200.size a
  h_S16x200x200 : 0 < S16x200x200.numel
  bitsLt_bf16_f32 : FTy.bits .bf16 < FTy.bits .f32
  inb_S128_S128_0 : ∀ a, (![0] : Fin 1 → Nat) a + S128.size a ≤ S128.size a
  h_S128 : 0 < S128.numel
  shapeCasts_S128_S1x1x128 : S128.ShapeCasts S1x1x128
  broadcasts_S1x1x128_S16x200x128 : S1x1x128.Broadcasts S16x200x128
  reduces_S16x200x200_S16x200 : S16x200x200.Reduces [2] S16x200
  shapeCasts_S16x200_S16x200x1 : S16x200.ShapeCasts S16x200x1
  broadcasts_S16x200x1_S16x200x200 : S16x200x1.Broadcasts S16x200x200
  dot_S16x200x128_S16x200x128_S16x200x200_2_2_1_1_0_0_wf : DotDims.WF S16x200x128 S16x200x128 S16x200x200 [2] [2] [1] [1] [0] [0]
  dot_S16x200x200_S16x200x128_S16x200x128_2_1_1_2_0_0_wf : DotDims.WF S16x200x200 S16x200x128 S16x200x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x200x128.size a ≤ S512x200x128.size a
  hwx0_0 : ∀ i : grid0.Coords, EltTy.bits .f32 = 32 ∨ (Rect.block (s := S512x200x128) S16x200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x200x200.size a ≤ S512x200x200.size a
  hwx0_1 : ∀ i : grid0.Coords, EltTy.bits .i32 = 32 ∨ (Rect.block (s := S512x200x200) S16x200x200.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x200x128.size a ≤ S512x200x128.size a
  hwx0_6 : ∀ i : grid0.Coords, EltTy.bits .f32 = 32 ∨ (Rect.block (s := S512x200x128) S16x200x128.size (cc0_transform_6 i) (hinb0_6 i)).WholeWords (EltTy.packing .f32)

variable [Facts₀]

def dot_S16x200x128_S16x200x128_S16x200x200_2_2_1_1_0_0 : DotDims S16x200x128 S16x200x128 S16x200x200 where
  lhsContracting := [2]
  rhsContracting := [2]
  lhsNonContracting := [1]
  rhsNonContracting := [1]
  lhsBatch := [0]
  rhsBatch := [0]
  wf := dot_S16x200x128_S16x200x128_S16x200x200_2_2_1_1_0_0_wf
def dot_S16x200x200_S16x200x128_S16x200x128_2_1_1_2_0_0 : DotDims S16x200x200 S16x200x128 S16x200x128 where
  lhsContracting := [2]
  rhsContracting := [1]
  lhsNonContracting := [1]
  rhsNonContracting := [2]
  lhsBatch := [0]
  rhsBatch := [0]
  wf := dot_S16x200x200_S16x200x128_S16x200x128_2_1_1_2_0_0_wf

abbrev win0_0 : Pipeline.Window sig grid0 :=
  Pipeline.Window.ofSpec (Memref.whole main_arg0) S16x200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x200x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S16x200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x200x128 : Shape := ⟨3, ![512, 200, 128]⟩
abbrev S512x200x200 : Shape := ⟨3, ![512, 200, 200]⟩
abbrev S128 : Shape := ⟨1, ![128]⟩
abbrev S_ : Shape := ⟨0, ![]⟩
abbrev S1x1x128 : Shape := ⟨3, ![1, 1, 128]⟩
abbrev S512x200 : Shape := ⟨2, ![512, 200]⟩
abbrev S512x200x1 : Shape := ⟨3, ![512, 200, 1]⟩

abbrev nBuf : Space → Nat
  | .hbm => 87
  | .vmem => 0
  | .smem => 0
  | _ => 0

abbrev bufTy : (tb : Table) → Fin (tcTables nBuf tb) → BufTy
  | .hbm, ⟨0, _⟩ => ⟨S512x200x128, .f32⟩
  | .hbm, ⟨1, _⟩ => ⟨S512x200x200, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S512x200x200, .f32⟩
  | .hbm, ⟨8, _⟩ => ⟨S_, .i32⟩
  | .hbm, ⟨9, _⟩ => ⟨S512x200x200, .i32⟩
  | .hbm, ⟨10, _⟩ => ⟨S512x200x200, .i1⟩
  | .hbm, ⟨11, _⟩ => ⟨S1x1x128, .f32⟩
  | .hbm, ⟨12, _⟩ => ⟨S512x200x128, .f32⟩
  | .hbm, ⟨13, _⟩ => ⟨S512x200x128, .f32⟩
  | .hbm, ⟨14, _⟩ => ⟨S512x200x200, .f32⟩
  | .hbm, ⟨15, _⟩ => ⟨S_, .f32⟩
  | .hbm, ⟨16, _⟩ => ⟨S_, .f32⟩
  | .hbm, ⟨17, _⟩ => ⟨S512x200x200, .f32⟩
  | .hbm, ⟨18, _⟩ => ⟨S512x200x200, .i1⟩
  | .hbm, ⟨19, _⟩ => ⟨S_, .f32⟩
  | .hbm, ⟨20, _⟩ => ⟨S512x200x200, .f32⟩
  | .hbm, ⟨21, _⟩ => ⟨S512x200x200, .f32⟩
  | .hbm, ⟨22, _⟩ => ⟨S512x200x200, .f32⟩
  | .hbm, ⟨23, _⟩ => ⟨S512x200x200, .f32⟩
  | .hbm, ⟨24, _⟩ => ⟨S_, .i32⟩
  | .hbm, ⟨25, _⟩ => ⟨S512x200x200, .i32⟩
  | .hbm, ⟨26, _⟩ => ⟨S512x200x200, .i1⟩
  | .hbm, ⟨27, _⟩ => ⟨S1x1x128, .f32⟩
  | .hbm, ⟨28, _⟩ => ⟨S512x200x128, .f32⟩
  | .hbm, ⟨29, _⟩ => ⟨S512x200x128, .f32⟩
  | .hbm, ⟨30, _⟩ => ⟨S512x200x200, .f32⟩
  | .hbm, ⟨31, _⟩ => ⟨S_, .f32⟩
  | .hbm, ⟨32, _⟩ => ⟨S_, .f32⟩
  | .hbm, ⟨33, _⟩ => ⟨S512x200x200, .f32⟩
  | .hbm, ⟨34, _⟩ => ⟨S512x200x200, .i1⟩
  | .hbm, ⟨35, _⟩ => ⟨S_, .f32⟩
  | .hbm, ⟨36, _⟩ => ⟨S512x200x200, .f32⟩
  | .hbm, ⟨37, _⟩ => ⟨S512x200x200, .f32⟩
  | .hbm, ⟨38, _⟩ => ⟨S512x200x200, .f32⟩
  | .hbm, ⟨39, _⟩ => ⟨S512x200x200, .f32⟩
  | .hbm, ⟨40, _⟩ => ⟨S_, .i32⟩
  | .hbm, ⟨41, _⟩ => ⟨S512x200x200, .i32⟩
  | .hbm, ⟨42, _⟩ => ⟨S512x200x200, .i1⟩
  | .hbm, ⟨43, _⟩ => ⟨S1x1x128, .f32⟩
  | .hbm, ⟨44, _⟩ => ⟨S512x200x128, .f32⟩
  | .hbm, ⟨45, _⟩ => ⟨S512x200x128, .f32⟩
  | .hbm, ⟨46, _⟩ => ⟨S512x200x200, .f32⟩
  | .hbm, ⟨47, _⟩ => ⟨S_, .f32⟩
  | .hbm, ⟨48, _⟩ => ⟨S_, .f32⟩
  | .hbm, ⟨49, _⟩ => ⟨S512x200x200, .f32⟩
  | .hbm, ⟨50, _⟩ => ⟨S512x200x200, .i1⟩
  | .hbm, ⟨51, _⟩ => ⟨S_, .f32⟩
  | .hbm, ⟨52, _⟩ => ⟨S512x200x200, .f32⟩
  | .hbm, ⟨53, _⟩ => ⟨S512x200x200, .f32⟩
  | .hbm, ⟨54, _⟩ => ⟨S512x200x200, .f32⟩
  | .hbm, ⟨55, _⟩ => ⟨S512x200x200, .f32⟩
  | .hbm, ⟨56, _⟩ => ⟨S_, .i32⟩
  | .hbm, ⟨57, _⟩ => ⟨S512x200x200, .i32⟩
  | .hbm, ⟨58, _⟩ => ⟨S512x200x200, .i1⟩
  | .hbm, ⟨59, _⟩ => ⟨S1x1x128, .f32⟩
  | .hbm, ⟨60, _⟩ => ⟨S512x200x128, .f32⟩
  | .hbm, ⟨61, _⟩ => ⟨S512x200x128, .f32⟩
  | .hbm, ⟨62, _⟩ => ⟨S512x200x200, .f32⟩
  | .hbm, ⟨63, _⟩ => ⟨S_, .f32⟩
  | .hbm, ⟨64, _⟩ => ⟨S_, .f32⟩
  | .hbm, ⟨65, _⟩ => ⟨S512x200x200, .f32⟩
  | .hbm, ⟨66, _⟩ => ⟨S512x200x200, .i1⟩
  | .hbm, ⟨67, _⟩ => ⟨S_, .f32⟩
  | .hbm, ⟨68, _⟩ => ⟨S512x200x200, .f32⟩
  | .hbm, ⟨69, _⟩ => ⟨S512x200x200, .f32⟩
  | .hbm, ⟨70, _⟩ => ⟨S512x200x200, .f32⟩
  | .hbm, ⟨71, _⟩ => ⟨S512x200x200, .f32⟩
  | .hbm, ⟨72, _⟩ => ⟨S_, .f32⟩
  | .hbm, ⟨73, _⟩ => ⟨S512x200, .f32⟩
  | .hbm, ⟨74, _⟩ => ⟨S_, .f32⟩
  | .hbm, ⟨75, _⟩ => ⟨S512x200, .f32⟩
  | .hbm, ⟨76, _⟩ => ⟨S512x200, .f32⟩
  | .hbm, ⟨77, _⟩ => ⟨S512x200x1, .f32⟩
  | .hbm, ⟨78, _⟩ => ⟨S512x200x200, .f32⟩
  | .hbm, ⟨79, _⟩ => ⟨S512x200x200, .f32⟩
  | .hbm, ⟨80, _⟩ => ⟨S512x200x200, .f32⟩
  | .hbm, ⟨81, _⟩ => ⟨S_, .f32⟩
  | .hbm, ⟨82, _⟩ => ⟨S512x200, .f32⟩
  | .hbm, ⟨83, _⟩ => ⟨S512x200x1, .f32⟩
  | .hbm, ⟨84, _⟩ => ⟨S512x200x200, .f32⟩
  | .hbm, ⟨85, _⟩ => ⟨S512x200x200, .f32⟩
  | .hbm, ⟨86, _⟩ => ⟨S512x200x128, .f32⟩
  | _, _ => ⟨S512x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call2_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_call4_cst : Ref sig .tc := ⟨.hbm, 48, rfl⟩
abbrev main_call4_v0 : Ref sig .tc := ⟨.hbm, 49, rfl⟩
abbrev main_call4_v1 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_call6_cst : Ref sig .tc := ⟨.hbm, 64, rfl⟩
abbrev main_call6_v0 : Ref sig .tc := ⟨.hbm, 65, rfl⟩
abbrev main_call6_v1 : Ref sig .tc := ⟨.hbm, 66, rfl⟩
abbrev main_call6_v2 : Ref sig .tc := ⟨.hbm, 67, rfl⟩
abbrev main_call6_v3 : Ref sig .tc := ⟨.hbm, 68, rfl⟩
abbrev main_call6_v4 : Ref sig .tc := ⟨.hbm, 69, rfl⟩
abbrev main_v31 : Ref sig .tc := ⟨.hbm, 70, rfl⟩
abbrev main_v32 : Ref sig .tc := ⟨.hbm, 71, rfl⟩
abbrev main_cst_7 : Ref sig .tc := ⟨.hbm, 72, rfl⟩
abbrev main_v33 : Ref sig .tc := ⟨.hbm, 73, rfl⟩
abbrev main_cst_8 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_9 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩

abbrev nD : Nat := 1
abbrev τ : Topo := Topo.v7x

variable {F : FTy → Type} [FloatOps F]

class Facts₀ : Prop where
  bcast_S_S512x200x200 : S_.BroadcastsInDim S512x200x200 (![] : Fin 0 → Fin S512x200x200.rank)
  bcast_S128_S1x1x128_2 : S128.BroadcastsInDim S1x1x128 (![2] : Fin 1 → Fin S1x1x128.rank)
  bcast_S1x1x128_S512x200x128_0_1_2 : S1x1x128.BroadcastsInDim S512x200x128 (![0, 1, 2] : Fin 3 → Fin S512x200x128.rank)
  reducesTo_S512x200x200_S512x200_d2 : S512x200x200.ReducesTo [2] S512x200
  h_S_ : 0 < S_.numel
  bcast_S_S512x200 : S_.BroadcastsInDim S512x200 (![] : Fin 0 → Fin S512x200.rank)
  bcast_S512x200_S512x200x1_0_1 : S512x200.BroadcastsInDim S512x200x1 (![0, 1] : Fin 2 → Fin S512x200x1.rank)
  bcast_S512x200x1_S512x200x200_0_1_2 : S512x200x1.BroadcastsInDim S512x200x200 (![0, 1, 2] : Fin 3 → Fin S512x200x200.rank)
  dot_S512x200x128_S512x200x128_S512x200x200_2_2_1_1_0_0_wf : DotDims.WF S512x200x128 S512x200x128 S512x200x200 [2] [2] [1] [1] [0] [0]
  dot_S512x200x200_S512x200x128_S512x200x128_2_1_1_2_0_0_wf : DotDims.WF S512x200x200 S512x200x128 S512x200x128 [2] [1] [1] [2] [0] [0]

variable [Facts₀]

def dot_S512x200x128_S512x200x128_S512x200x200_2_2_1_1_0_0 : DotDims S512x200x128 S512x200x128 S512x200x200 where
  lhsContracting := [2]
  rhsContracting := [2]
  lhsNonContracting := [1]
  rhsNonContracting := [1]
  lhsBatch := [0]
  rhsBatch := [0]
  wf := dot_S512x200x128_S512x200x128_S512x200x200_2_2_1_1_0_0_wf
def dot_S512x200x200_S512x200x128_S512x200x128_2_1_1_2_0_0 : DotDims S512x200x200 S512x200x128 S512x200x128 where
  lhsContracting := [2]
  rhsContracting := [1]
  lhsNonContracting := [1]
  rhsNonContracting := [2]
  lhsBatch := [0]
  rhsBatch := [0]
  wf := dot_S512x200x200_S512x200x128_S512x200x128_2_1_1_2_0_0_wf

class Facts : Prop extends Facts₀ where

variable [Facts]
-- ==== Proof.Spec.lean ====
/-
  Relation-typed neighbourhood attention, one batch member at a time, on the extended reals.

  A batch member has 200 nodes with 128 features each (`hb n e`) and an integer relation code for every ordered pair
  of nodes (`adjb n m`).  For each of four weight vectors `a` the bilinear score of the pair `(n, m)` is
  `∑ e, (hb n e * a e) * hb m e`; the score passes through the leaky rectifier (slope `slope` below zero); the
  logit of the pair is the rectified score under the weight vector its relation code selects (codes 1, 2, 3, 4) and
  the large negative number `negBig` when the code is none of these.  Row `n` of the logits is shifted by its
  maximum, exponentiated and normalised by its sum; the output row is the weighted sum of the feature rows.
  The whole-array function `attn` applies this to batch member `b` of arrays with any number of batch members.
-/
import Idealize.ShloMosaic.PureOps.Ideal
import Idealize.ShloMosaic.PureOps.Ideal.Laws
import Idealize.ShloMosaic.Lib.ValueIdx

noncomputable section

namespace Cert.RelAttn

open Idealize.ShloMosaic Idealize.ShloMosaic.ValueIdx

/-- The logit of a pair of nodes that no relation joins: a large negative number. -/
abbrev negBig : EReal := Ideal.ofBits .f32 0xD9FFCB9E#32
/-- The slope of the leaky rectifier below zero. -/
abbrev slope : EReal := Ideal.ofBits .f32 0x3E4CCCCD#32
/-- Zero, as the rectifier's threshold. -/
abbrev zeroF : EReal := Ideal.ofBits .f32 0x00000000#32
/-- Minus infinity, the value a maximum starts from. -/
abbrev negInf : EReal := Ideal.ofBits .f32 0xFF800000#32

/-- The bilinear score of the ordered pair `(n, m)` under the weight vector `a`. -/
def score (a : Fin 128 → EReal) (hb : Fin 200 → Fin 128 → EReal) (n m : Fin 200) : EReal :=
  ∑ e : Fin 128, (hb n e * a e) * hb m e

/-- The leaky rectifier: `x` where `x ≥ 0`, `slope * x` elsewhere. -/
def lrelu (x : EReal) : EReal :=
  Scalar.select (Ideal.cmp .oge x zeroF) x (slope * x)

/-- The logit of the pair `(n, m)`: the rectified score under the weight vector the pair's relation code selects,
    the later codes taking precedence, and `negBig` under no code. -/
def logit (a0 a1 a2 a3 : Fin 128 → EReal) (hb : Fin 200 → Fin 128 → EReal) (adjb : Fin 200 → Fin 200 → BitVec 32)
    (n m : Fin 200) : EReal :=
  Scalar.select (IntOp.cmpi .eq (adjb n m) 4#32) (lrelu (score a3 hb n m))
    (Scalar.select (IntOp.cmpi .eq (adjb n m) 3#32) (lrelu (score a2 hb n m))
      (Scalar.select (IntOp.cmpi .eq (adjb n m) 2#32) (lrelu (score a1 hb n m))
        (Scalar.select (IntOp.cmpi .eq (adjb n m) 1#32) (lrelu (score a0 hb n m)) negBig)))

/-- The maximum of a row of logits (taken from minus infinity, and once more against it). -/
def rowMax (L : Fin 200 → EReal) : EReal :=
  max negInf ((Finset.univ : Finset (Fin 200)).fold max negInf L)

/-- A logit shifted by its row's maximum and exponentiated. -/
def expo (L : Fin 200 → EReal) (m : Fin 200) : EReal := Ideal.exp (L m - rowMax L)

/-- The attention weight of column `m`: its exponential over the row's sum of exponentials. -/
def weight (L : Fin 200 → EReal) (m : Fin 200) : EReal := Ideal.div (expo L m) (∑ k : Fin 200, expo L k)

/-- Row `n`, feature `d` of one batch member's output: the attention-weighted sum of the feature rows. -/
def out (a0 a1 a2 a3 : Fin 128 → EReal) (hb : Fin 200 → Fin 128 → EReal) (adjb : Fin 200 → Fin 200 → BitVec 32)
    (n : Fin 200) (d : Fin 128) : EReal :=
  ∑ m : Fin 200, weight (logit a0 a1 a2 a3 hb adjb n) m * hb m d

/-- The whole-array function: entry `(b, n, d)` of the output is `out` of batch member `b` of the features and the
    relation codes, for arrays of any number `B` of batch members. -/
def attn {B : ℕ} (h : (⟨3, ![B, 200, 128]⟩ : Shape).Idx → EReal) (adj : (⟨3, ![B, 200, 200]⟩ : Shape).Idx → BitVec 32)
    (a0 a1 a2 a3 : (⟨1, ![128]⟩ : Shape).Idx → EReal) (b : Fin B) (n : Fin 200) (d : Fin 128) : EReal :=
  out (fun e => a0 (ix1 e)) (fun e => a1 (ix1 e)) (fun e => a2 (ix1 e)) (fun e => a3 (ix1 e))
    (fun r e => h (ix3 b r e)) (fun r s => adj (ix3 b r s)) n d

/-- The output array for the 512 batch members of the full problem, as a function of the argument arrays. -/
def whole (h : (⟨3, ![512, 200, 128]⟩ : Shape).Idx → EReal) (adj : (⟨3, ![512, 200, 200]⟩ : Shape).Idx → BitVec 32)
    (a0 a1 a2 a3 : (⟨1, ![128]⟩ : Shape).Idx → EReal) : (⟨3, ![512, 200, 128]⟩ : Shape).Idx → EReal :=
  fun i => attn h adj a0 a1 a2 a3 (i 0) (i 1) (i 2)

end Cert.RelAttn

end
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.LibDotBatchedNT.lean ====
/-
  A batched matrix product against a transposed right factor, read at an index at the exact extended reals: a
  general lemma.

  The einsum `'bmk,bnk->bmn'`: with dimension numbers that take axis 0 of both factors as the batch axis and contract
  axis 2 of a `[B, M, K]` left factor with axis 2 of a `[B, N, K]` right factor (the result `[B, M, N]`), entry
  `(b, p, q)` of the host's product is the sum over `e` of `lhs (b, p, e) * rhs (b, q, e)`: within batch member
  `b`, row `p` of the left factor against row `q` of the right one.  Generic in the four extents.
-/
import Idealize.ShloMosaic.PureOps.Ideal
import Idealize.ShloMosaic.PureOps.Ideal.Laws
import Idealize.ShloMosaic.Lib.ValueIdx

noncomputable section

namespace Cert.LibDotBatchedNT

open Idealize.ShloMosaic Idealize.ShloMosaic.ValueIdx

variable {B M N K : ℕ}

/-- The dimension numbers "within each batch member, rows against rows": batch axis 0 of each factor, contract
    axis 2 with axis 2, keep axis 1 of each factor. -/
abbrev dims (wf : DotDims.WF (⟨3, ![B, M, K]⟩ : Shape) (⟨3, ![B, N, K]⟩ : Shape) (⟨3, ![B, M, N]⟩ : Shape) [2] [2] [1] [1] [0] [0]) :
    DotDims (⟨3, ![B, M, K]⟩ : Shape) (⟨3, ![B, N, K]⟩ : Shape) (⟨3, ![B, M, N]⟩ : Shape) where
  lhsContracting := [2]
  rhsContracting := [2]
  lhsNonContracting := [1]
  rhsNonContracting := [1]
  lhsBatch := [0]
  rhsBatch := [0]
  wf := wf

variable (wf : DotDims.WF (⟨3, ![B, M, K]⟩ : Shape) (⟨3, ![B, N, K]⟩ : Shape) (⟨3, ![B, M, N]⟩ : Shape) [2] [2] [1] [1] [0] [0])

/-- The left index keeps the result's batch coordinate on its batch axis. -/
theorem lhsIdx_batch (j : (⟨3, ![B, M, N]⟩ : Shape).Idx) (k : (dims wf).contr.Idx) :
    ((dims wf).lhsIdx j k 0).val = (j 0).val := by
  unfold DotDims.lhsIdx
  rw [dif_pos (show (0 : Fin (⟨3, ![B, M, K]⟩ : Shape).rank) ∈ (dims wf).lhsBatch from List.mem_singleton.mpr rfl)]
  rfl

/-- The left index keeps the result's row coordinate on its row axis. -/
theorem lhsIdx_row (j : (⟨3, ![B, M, N]⟩ : Shape).Idx) (k : (dims wf).contr.Idx) :
    ((dims wf).lhsIdx j k 1).val = (j 1).val := by
  unfold DotDims.lhsIdx
  rw [dif_neg (show ¬(1 : Fin (⟨3, ![B, M, K]⟩ : Shape).rank) ∈ (dims wf).lhsBatch from
      fun h => Nat.one_ne_zero (congrArg Fin.val (List.mem_singleton.mp h))),
    dif_pos (show (1 : Fin (⟨3, ![B, M, K]⟩ : Shape).rank) ∈ (dims wf).lhsNonContracting from List.mem_singleton.mpr rfl)]
  rfl

/-- The right index keeps the result's batch coordinate on its batch axis. -/
theorem rhsIdx_batch (j : (⟨3, ![B, M, N]⟩ : Shape).Idx) (k : (dims wf).contr.Idx) :
    ((dims wf).rhsIdx j k 0).val = (j 0).val := by
  unfold DotDims.rhsIdx
  rw [dif_pos (show (0 : Fin (⟨3, ![B, N, K]⟩ : Shape).rank) ∈ (dims wf).rhsBatch from List.mem_singleton.mpr rfl)]
  rfl

/-- The right index puts the result's column coordinate on its row axis. -/
theorem rhsIdx_row (j : (⟨3, ![B, M, N]⟩ : Shape).Idx) (k : (dims wf).contr.Idx) :
    ((dims wf).rhsIdx j k 1).val = (j 2).val := by
  unfold DotDims.rhsIdx
  rw [dif_neg (show ¬(1 : Fin (⟨3, ![B, N, K]⟩ : Shape).rank) ∈ (dims wf).rhsBatch from
      fun h => Nat.one_ne_zero (congrArg Fin.val (List.mem_singleton.mp h))),
    dif_pos (show (1 : Fin (⟨3, ![B, N, K]⟩ : Shape).rank) ∈ (dims wf).rhsNonContracting from List.mem_singleton.mpr rfl)]
  rfl

/-- The left index at result `(b, p, q)` and contraction position `e` is `(b, p, e)`. -/
theorem lhsIdx_eq (b : Fin B) (p : Fin M) (q : Fin N) (e : Fin K) :
    (dims wf).lhsIdx (ix3 b p q) ((contrEquiv1 (dims wf) K rfl rfl).symm e) = ix3 b p e := by
  have he := contrEquiv1_symm_val (dims wf) K rfl rfl e
  funext a
  apply Fin.ext
  match a with
  | ⟨0, _⟩ => exact lhsIdx_batch wf _ _
  | ⟨1, _⟩ => exact lhsIdx_row wf _ _
  | ⟨2, _⟩ => exact ((dims wf).lhsIdx_val_of_single rfl _ _).trans he

/-- The right index at result `(b, p, q)` and contraction position `e` is `(b, q, e)`. -/
theorem rhsIdx_eq (b : Fin B) (p : Fin M) (q : Fin N) (e : Fin K) :
    (dims wf).rhsIdx (ix3 b p q) ((contrEquiv1 (dims wf) K rfl rfl).symm e) = ix3 b q e := by
  have he := contrEquiv1_symm_val (dims wf) K rfl rfl e
  funext a
  apply Fin.ext
  match a with
  | ⟨0, _⟩ => exact rhsIdx_batch wf _ _
  | ⟨1, _⟩ => exact rhsIdx_row wf _ _
  | ⟨2, _⟩ => exact ((dims wf).rhsIdx_val_of_single rfl _ _).trans he

/-- Entry `(b, p, q)` of the host's batched product: within batch member `b`, row `p` of `lhs` against row `q`
    of `rhs`. -/
theorem dotGeneral_apply {φ₁ φ₂ : FTy} (prec : Option ContractPrecision)
    (lhs : FVec Ideal (⟨3, ![B, M, K]⟩ : Shape) φ₁) (rhs : FVec Ideal (⟨3, ![B, N, K]⟩ : Shape) φ₂)
    (b : Fin B) (p : Fin M) (q : Fin N) :
    Host.dotGeneral (F := Ideal) (dims wf) prec lhs rhs (ix3 b p q)
      = ∑ e : Fin K, lhs (ix3 b p e) * rhs (ix3 b q e) := by
  unfold Host.dotGeneral
  rw [Ideal.dotGeneral_apply, ← Equiv.sum_comp (contrEquiv1 (dims wf) K rfl rfl).symm]
  refine Finset.sum_congr rfl fun e _ => ?_
  rw [lhsIdx_eq wf b p q e, rhsIdx_eq wf b p q e]

end Cert.LibDotBatchedNT

end
-- ==== Proof.LibBatchedProducts.lean ====
/-
  Batched matrix products read at an index at the exact extended reals: general lemmas.

  Within each batch member `b` (axis 0 of both factors and of the result):
  * "rows against rows" — a `[B, M, K]` left factor against a `[B, N, K]` right factor, contracting the last axis of
    both: entry `(b, p, q)` is `∑ e, lhs (b, p, e) * rhs (b, q, e)`;
  * "rows against columns" — a `[B, M, K]` left factor against a `[B, K, N]` right factor, contracting the last axis
    of the left with the middle axis of the right: entry `(b, p, q)` is `∑ e, lhs (b, p, e) * rhs (b, e, q)`.
  Each is stated for the host's product and for a kernel's matrix unit accumulating into a zero array.  Generic in
  the four extents.
-/
import Idealize.ShloMosaic.PureOps.Ideal
import Idealize.ShloMosaic.PureOps.Ideal.Laws
import Idealize.ShloMosaic.Lib.ValueIdx
import proofs.«124925_j68453188764260_1_alg».proof.Proof.LibDotBatchedNT

noncomputable section

namespace Cert.LibBatchedProducts

open Idealize.ShloMosaic Idealize.ShloMosaic.ValueIdx

variable {B M N K : ℕ}

/-! ## Rows against rows -/

section NT

variable (wf : DotDims.WF (⟨3, ![B, M, K]⟩ : Shape) (⟨3, ![B, N, K]⟩ : Shape) (⟨3, ![B, M, N]⟩ : Shape) [2] [2] [1] [1] [0] [0])

/-- Entry `(b, p, q)` of a matrix unit's batched product into a zero accumulator: within batch member `b`, row `p`
    of `lhs` against row `q` of `rhs`. -/
theorem matmulNT_apply {φ₁ φ₂ : FTy} (prec : Option ContractPrecision)
    (lhs : FVec Ideal (⟨3, ![B, M, K]⟩ : Shape) φ₁) (rhs : FVec Ideal (⟨3, ![B, N, K]⟩ : Shape) φ₂)
    (b : Fin B) (p : Fin M) (q : Fin N) :
    FloatOps.matmul (F := Ideal) (Cert.LibDotBatchedNT.dims wf) prec lhs rhs
        (constant (⟨3, ![B, M, N]⟩ : Shape) .f32 0x00000000#32) (ix3 b p q)
      = ∑ e : Fin K, lhs (ix3 b p e) * rhs (ix3 b q e) := by
  rw [Ideal.matmul_constant_zero_apply, ← Equiv.sum_comp (contrEquiv1 (Cert.LibDotBatchedNT.dims wf) K rfl rfl).symm]
  refine Finset.sum_congr rfl fun e _ => ?_
  rw [Cert.LibDotBatchedNT.lhsIdx_eq wf b p q e, Cert.LibDotBatchedNT.rhsIdx_eq wf b p q e]

end NT

/-! ## Rows against columns -/

section NN

/-- The dimension numbers "within each batch member, rows against columns": batch axis 0 of each factor, contract
    axis 2 of the left factor with axis 1 of the right, keep axis 1 of the left and axis 2 of the right. -/
abbrev dimsNN (wf : DotDims.WF (⟨3, ![B, M, K]⟩ : Shape) (⟨3, ![B, K, N]⟩ : Shape) (⟨3, ![B, M, N]⟩ : Shape) [2] [1] [1] [2] [0] [0]) :
    DotDims (⟨3, ![B, M, K]⟩ : Shape) (⟨3, ![B, K, N]⟩ : Shape) (⟨3, ![B, M, N]⟩ : Shape) where
  lhsContracting := [2]
  rhsContracting := [1]
  lhsNonContracting := [1]
  rhsNonContracting := [2]
  lhsBatch := [0]
  rhsBatch := [0]
  wf := wf

variable (wf : DotDims.WF (⟨3, ![B, M, K]⟩ : Shape) (⟨3, ![B, K, N]⟩ : Shape) (⟨3, ![B, M, N]⟩ : Shape) [2] [1] [1] [2] [0] [0])

theorem lhsIdxNN_batch (j : (⟨3, ![B, M, N]⟩ : Shape).Idx) (k : (dimsNN wf).contr.Idx) :
    ((dimsNN wf).lhsIdx j k 0).val = (j 0).val := by
  unfold DotDims.lhsIdx
  rw [dif_pos (show (0 : Fin (⟨3, ![B, M, K]⟩ : Shape).rank) ∈ (dimsNN wf).lhsBatch from List.mem_singleton.mpr rfl)]
  rfl

theorem lhsIdxNN_row (j : (⟨3, ![B, M, N]⟩ : Shape).Idx) (k : (dimsNN wf).contr.Idx) :
    ((dimsNN wf).lhsIdx j k 1).val = (j 1).val := by
  unfold DotDims.lhsIdx
  rw [dif_neg (show ¬(1 : Fin (⟨3, ![B, M, K]⟩ : Shape).rank) ∈ (dimsNN wf).lhsBatch from
      fun h => Nat.one_ne_zero (congrArg Fin.val (List.mem_singleton.mp h))),
    dif_pos (show (1 : Fin (⟨3, ![B, M, K]⟩ : Shape).rank) ∈ (dimsNN wf).lhsNonContracting from List.mem_singleton.mpr rfl)]
  rfl

theorem rhsIdxNN_batch (j : (⟨3, ![B, M, N]⟩ : Shape).Idx) (k : (dimsNN wf).contr.Idx) :
    ((dimsNN wf).rhsIdx j k 0).val = (j 0).val := by
  unfold DotDims.rhsIdx
  rw [dif_pos (show (0 : Fin (⟨3, ![B, K, N]⟩ : Shape).rank) ∈ (dimsNN wf).rhsBatch from List.mem_singleton.mpr rfl)]
  rfl

theorem rhsIdxNN_col (j : (⟨3, ![B, M, N]⟩ : Shape).Idx) (k : (dimsNN wf).contr.Idx) :
    ((dimsNN wf).rhsIdx j k 2).val = (j 2).val := by
  unfold DotDims.rhsIdx
  rw [dif_neg (show ¬(2 : Fin (⟨3, ![B, K, N]⟩ : Shape).rank) ∈ (dimsNN wf).rhsBatch from
      fun h => (by decide : (2 : ℕ) ≠ 0) (congrArg Fin.val (List.mem_singleton.mp h))),
    dif_pos (show (2 : Fin (⟨3, ![B, K, N]⟩ : Shape).rank) ∈ (dimsNN wf).rhsNonContracting from List.mem_singleton.mpr rfl)]
  rfl

/-- The left index at result `(b, p, q)` and contraction position `e` is `(b, p, e)`. -/
theorem lhsIdxNN_eq (b : Fin B) (p : Fin M) (q : Fin N) (e : Fin K) :
    (dimsNN wf).lhsIdx (ix3 b p q) ((contrEquiv1 (dimsNN wf) K rfl rfl).symm e) = ix3 b p e := by
  have he := contrEquiv1_symm_val (dimsNN wf) K rfl rfl e
  funext a
  apply Fin.ext
  match a with
  | ⟨0, _⟩ => exact lhsIdxNN_batch wf _ _
  | ⟨1, _⟩ => exact lhsIdxNN_row wf _ _
  | ⟨2, _⟩ => exact ((dimsNN wf).lhsIdx_val_of_single rfl _ _).trans he

/-- The right index at result `(b, p, q)` and contraction position `e` is `(b, e, q)`. -/
theorem rhsIdxNN_eq (b : Fin B) (p : Fin M) (q : Fin N) (e : Fin K) :
    (dimsNN wf).rhsIdx (ix3 b p q) ((contrEquiv1 (dimsNN wf) K rfl rfl).symm e) = ix3 b e q := by
  have he := contrEquiv1_symm_val (dimsNN wf) K rfl rfl e
  funext a
  apply Fin.ext
  match a with
  | ⟨0, _⟩ => exact rhsIdxNN_batch wf _ _
  | ⟨1, _⟩ => exact ((dimsNN wf).rhsIdx_val_of_single rfl _ _).trans he
  | ⟨2, _⟩ => exact rhsIdxNN_col wf _ _

/-- Entry `(b, p, q)` of the host's batched product: within batch member `b`, row `p` of `lhs` against column `q`
    of `rhs`. -/
theorem dotGeneralNN_apply {φ₁ φ₂ : FTy} (prec : Option ContractPrecision)
    (lhs : FVec Ideal (⟨3, ![B, M, K]⟩ : Shape) φ₁) (rhs : FVec Ideal (⟨3, ![B, K, N]⟩ : Shape) φ₂)
    (b : Fin B) (p : Fin M) (q : Fin N) :
    Host.dotGeneral (F := Ideal) (dimsNN wf) prec lhs rhs (ix3 b p q)
      = ∑ e : Fin K, lhs (ix3 b p e) * rhs (ix3 b e q) := by
  unfold Host.dotGeneral
  rw [Ideal.dotGeneral_apply, ← Equiv.sum_comp (contrEquiv1 (dimsNN wf) K rfl rfl).symm]
  refine Finset.sum_congr rfl fun e _ => ?_
  rw [lhsIdxNN_eq wf b p q e, rhsIdxNN_eq wf b p q e]

/-- Entry `(b, p, q)` of a matrix unit's batched product into a zero accumulator: the same sum. -/
theorem matmulNN_apply {φ₁ φ₂ : FTy} (prec : Option ContractPrecision)
    (lhs : FVec Ideal (⟨3, ![B, M, K]⟩ : Shape) φ₁) (rhs : FVec Ideal (⟨3, ![B, K, N]⟩ : Shape) φ₂)
    (b : Fin B) (p : Fin M) (q : Fin N) :
    FloatOps.matmul (F := Ideal) (dimsNN wf) prec lhs rhs
        (constant (⟨3, ![B, M, N]⟩ : Shape) .f32 0x00000000#32) (ix3 b p q)
      = ∑ e : Fin K, lhs (ix3 b p e) * rhs (ix3 b e q) := by
  rw [Ideal.matmul_constant_zero_apply, ← Equiv.sum_comp (contrEquiv1 (dimsNN wf) K rfl rfl).symm]
  refine Finset.sum_congr rfl fun e _ => ?_
  rw [lhsIdxNN_eq wf b p q e, rhsIdxNN_eq wf b p q e]

end NN

end Cert.LibBatchedProducts

end
-- ==== Proof.KernelPayload.lean ====
/-
  The kernel body's stored value, read at an index of the block, is the attention output of that block's batch member.
-/
import proofs.«124925_j68453188764260_1_alg».proof.Proof.Gen.KernelIdeal.Skeleton
import proofs.«124925_j68453188764260_1_alg».proof.Proof.Spec
import proofs.«124925_j68453188764260_1_alg».proof.Proof.LibRank3Layout
import proofs.«124925_j68453188764260_1_alg».proof.Proof.LibDotBatchedNT
import proofs.«124925_j68453188764260_1_alg».proof.Proof.LibBatchedProducts

noncomputable section

namespace Cert.KernelIdeal.PayloadValue

open Cert.KernelIdeal Cert.KernelIdeal.Gen Idealize.ShloMosaic Idealize.ShloMosaic.ValueIdx

/-- A weight vector viewed as a `1 × 1 × 128` array and repeated over the 16 batch members and the 200 nodes: entry
    `(p, n, e)` is the vector's entry `e`. -/
theorem weightRow_apply (x : Vec Ideal S128 .f32) (h₁ : S128.ShapeCasts S1x1x128)
    (h₂ : S1x1x128.Broadcasts S16x200x128) (p : Fin 16) (n : Fin 200) (e : Fin 128) :
    broadcastTo S16x200x128 (shapeCast S1x1x128 x h₁) h₂ (ix3 p n e) = x (ix1 e) := by
  refine (broadcastTo_apply _ h₂ _ (ix3 ⟨0, Nat.one_pos⟩ ⟨0, Nat.one_pos⟩ e) fun d => ?_).trans ?_
  · match d with
    | ⟨0, _⟩ =>
      show (0 : ℕ) = if (1 : ℕ) = 1 then 0 else p.val
      rw [if_pos rfl]
    | ⟨1, _⟩ =>
      show (0 : ℕ) = if (1 : ℕ) = 1 then 0 else n.val
      rw [if_pos rfl]
    | ⟨2, _⟩ =>
      show e.val = if (128 : ℕ) = 1 then 0 else e.val
      rw [if_neg (by decide)]
  · refine shapeCast_apply x h₁ _ _ ?_
    rw [Shape.rowMajor_val_one, Shape.rowMajor_val_three]
    show e.val = (0 * 1 + 0) * 128 + e.val
    omega

/-- The leaky rectifier applied to every entry of an array, read at an index. -/
theorem leaky_apply (s : FVec Ideal S16x200x200 .f32) (i : S16x200x200.Idx) :
    select (cmpf .oge s (broadcast S16x200x200 (Scalar.ofBits .f32 0x00000000#32)))
        s (mulf (broadcast S16x200x200 (Scalar.ofBits .f32 0x3E4CCCCD#32)) s) i
      = Cert.RelAttn.lrelu (s i) := rfl

/-- A relation code's pick, read at an index. -/
theorem pick_apply (c : IVec S16x200x200 32) (k : BitVec 32) (s prev : FVec Ideal S16x200x200 .f32) (i : S16x200x200.Idx) :
    select (cmpi .eq c (broadcast S16x200x200 k)) s prev i
      = Scalar.select (IntOp.cmpi .eq (c i) k) (s i) (prev i) := rfl

/-- The printed dimension numbers of the score product are "within each batch member, rows against rows". -/
theorem dotNT_eq : dot_S16x200x128_S16x200x128_S16x200x200_2_2_1_1_0_0
    = Cert.LibDotBatchedNT.dims Facts₀.dot_S16x200x128_S16x200x128_S16x200x200_2_2_1_1_0_0_wf := rfl

/-- The printed dimension numbers of the output product are "within each batch member, rows against columns". -/
theorem dotNN_eq : dot_S16x200x200_S16x200x128_S16x200x128_2_1_1_2_0_0
    = Cert.LibBatchedProducts.dimsNN Facts₀.dot_S16x200x200_S16x200x128_S16x200x128_2_1_1_2_0_0_wf := rfl

/-- A score matrix: the features scaled entrywise by a weight vector, multiplied within each batch member against
    the features' rows. Entry `(p, n, m)` is the bilinear score of the pair `(n, m)` of batch member `p`. -/
theorem score_apply (x0 : Vec Ideal S16x200x128 .f32) (a : Vec Ideal S128 .f32) (h₁ : S128.ShapeCasts S1x1x128)
    (h₂ : S1x1x128.Broadcasts S16x200x128) (hb : FTy.bits .bf16 < FTy.bits .f32) (p : Fin 16) (n m : Fin 200) :
    matmul dot_S16x200x128_S16x200x128_S16x200x200_2_2_1_1_0_0 none
        (truncf .bf16 (mulf x0 (broadcastTo S16x200x128 (shapeCast S1x1x128 a h₁) h₂)) hb)
        (k0_pay2 x0) (constant S16x200x200 .f32 0x00000000#32) (ix3 p n m)
      = Cert.RelAttn.score (fun e => a (ix1 e)) (fun r e => x0 (ix3 p r e)) n m := by
  rw [dotNT_eq]
  refine (Cert.LibBatchedProducts.matmulNT_apply _ none _ _ p n m).trans ?_
  refine Finset.sum_congr rfl fun e _ => ?_
  show x0 (ix3 p n e) * broadcastTo S16x200x128 (shapeCast S1x1x128 a h₁) h₂ (ix3 p n e) * x0 (ix3 p m e) = _
  rw [weightRow_apply]

/-- The four score matrices enter the logits through the same two steps: the leaky rectifier, then the pick under a
    relation code. Both act entry by entry. -/
theorem pickLeaky_apply (c : IVec S16x200x200 32) (k : BitVec 32) (s prev : FVec Ideal S16x200x200 .f32)
    (i : S16x200x200.Idx) :
    select (cmpi .eq c (broadcast S16x200x200 k))
        (select (cmpf .oge s (broadcast S16x200x200 (Scalar.ofBits .f32 0x00000000#32)))
          s (mulf (broadcast S16x200x200 (Scalar.ofBits .f32 0x3E4CCCCD#32)) s)) prev i
      = Scalar.select (IntOp.cmpi .eq (c i) k) (Cert.RelAttn.lrelu (s i)) (prev i) := rfl

/-- A selection between equal alternatives under the same condition. -/
theorem select_congr {α : Type} (c : BitVec 1) {a a' b b' : α} (ha : a = a') (hb : b = b') :
    Scalar.select c a b = Scalar.select c a' b' := by rw [ha, hb]

/-- The array of shifted exponentials of an array of logits: each row's maximum (taken from minus infinity, and once
    more against it) is kept as a unit lane, repeated along the row, subtracted, and the difference exponentiated. -/
abbrev expArr (L : FVec Ideal S16x200x200 .f32) (hr : S16x200x200.Reduces [2] S16x200) (hφ : FKind.Formats .f32)
    (hacc : (0xFF800000#32 : BitVec 32) = FKind.maximumf.neutral .f32 hφ) (hc : S16x200.ShapeCasts S16x200x1)
    (hb : S16x200x1.Broadcasts S16x200x200) : FVec Ideal S16x200x200 .f32 :=
  exp (subf L (broadcastTo S16x200x200 (shapeCast S16x200x1
    (maximumf (broadcast S16x200 (Scalar.ofBits .f32 0xFF800000#32))
      (multiReduction .maximumf [2] S16x200 L 0xFF800000#32 hr hφ hacc)) hc) hb))

/-- The repeated row maximum, read at `(p, n, m)`, is the maximum of row `n` of batch member `p`. -/
theorem rowMax_apply (L : FVec Ideal S16x200x200 .f32) (hr : S16x200x200.Reduces [2] S16x200) (hφ : FKind.Formats .f32)
    (hacc : (0xFF800000#32 : BitVec 32) = FKind.maximumf.neutral .f32 hφ) (hc : S16x200.ShapeCasts S16x200x1)
    (hb : S16x200x1.Broadcasts S16x200x200) (p : Fin 16) (n m : Fin 200) :
    broadcastTo S16x200x200 (shapeCast S16x200x1
        (maximumf (broadcast S16x200 (Scalar.ofBits .f32 0xFF800000#32))
          (multiReduction .maximumf [2] S16x200 L 0xFF800000#32 hr hφ hacc)) hc) hb (ix3 p n m)
      = Cert.RelAttn.rowMax (fun k => L (ix3 p n k)) := by
  refine (Cert.LibRank3.broadcastTo_lane_apply _ hb p n m).trans ?_
  refine (Cert.LibRank3.shapeCast_keepdim_apply _ hc p n _).trans ?_
  exact congrArg (max Cert.RelAttn.negInf) (Cert.LibRank3.max_lane_apply L _ hr hφ hacc p n)

/-- A shifted exponential read at `(p, n, m)`. -/
theorem expArr_apply (L : FVec Ideal S16x200x200 .f32) (hr : S16x200x200.Reduces [2] S16x200) (hφ : FKind.Formats .f32)
    (hacc : (0xFF800000#32 : BitVec 32) = FKind.maximumf.neutral .f32 hφ) (hc : S16x200.ShapeCasts S16x200x1)
    (hb : S16x200x1.Broadcasts S16x200x200) (p : Fin 16) (n m : Fin 200) :
    expArr L hr hφ hacc hc hb (ix3 p n m) = Cert.RelAttn.expo (fun k => L (ix3 p n k)) m :=
  congrArg (fun t => Ideal.exp (L (ix3 p n m) - t)) (rowMax_apply L hr hφ hacc hc hb p n m)

/-- The normalised weights: the shifted exponentials over their row sums (each sum kept as a unit lane and repeated
    along the row). Entry `(p, n, m)` is the attention weight of column `m` in row `n` of batch member `p`. -/
theorem weight_apply (L : FVec Ideal S16x200x200 .f32) (hr : S16x200x200.Reduces [2] S16x200) (hφ : FKind.Formats .f32)
    (hacc : (0xFF800000#32 : BitVec 32) = FKind.maximumf.neutral .f32 hφ) (hc : S16x200.ShapeCasts S16x200x1)
    (hb : S16x200x1.Broadcasts S16x200x200) (hr' : S16x200x200.Reduces [2] S16x200) (hφ' : FKind.Formats .f32)
    (hacc' : (0x00000000#32 : BitVec 32) = FKind.add.neutral .f32 hφ') (hc' : S16x200.ShapeCasts S16x200x1)
    (hb' : S16x200x1.Broadcasts S16x200x200) (p : Fin 16) (n m : Fin 200) :
    divf (expArr L hr hφ hacc hc hb)
        (broadcastTo S16x200x200 (shapeCast S16x200x1
          (multiReduction .add [2] S16x200 (expArr L hr hφ hacc hc hb) 0x00000000#32 hr' hφ' hacc') hc') hb') (ix3 p n m)
      = Cert.RelAttn.weight (fun k => L (ix3 p n k)) m := by
  refine congr (congrArg Ideal.div (expArr_apply L hr hφ hacc hc hb p n m)) ?_
  refine (Cert.LibRank3.broadcastTo_lane_apply _ hb' p n m).trans ?_
  refine (Cert.LibRank3.shapeCast_keepdim_apply _ hc' p n _).trans ?_
  refine (Cert.LibRank3.sum_lane_apply _ _ hr' hφ' hacc' p n).trans ?_
  exact Finset.sum_congr rfl fun k _ => expArr_apply L hr hφ hacc hc hb p n k

/-- The output product: the weights multiplied within each batch member against the features. Entry `(p, n, d)` is
    the weighted sum over the nodes `m` of feature `d`. -/
theorem outProduct_apply (W : FVec Ideal S16x200x200 .f32) (x0 : Vec Ideal S16x200x128 .f32)
    (hb : FTy.bits .bf16 < FTy.bits .f32) (p : Fin 16) (n : Fin 200) (d : Fin 128) :
    matmul dot_S16x200x200_S16x200x128_S16x200x128_2_1_1_2_0_0 none (truncf .bf16 W hb) (k0_pay2 x0)
        (constant S16x200x128 .f32 0x00000000#32) (ix3 p n d)
      = ∑ m : Fin 200, W (ix3 p n m) * x0 (ix3 p m d) := by
  rw [dotNN_eq]
  exact Cert.LibBatchedProducts.matmulNN_apply _ none _ _ p n d

/-- The third score matrix, read at `(p, n, m)`: the score of the pair under the weight vector of relation code 3. -/
theorem pay4_apply (x0 : Vec Ideal S16x200x128 .f32) (x4 : Vec Ideal S128 .f32) (p : Fin 16) (n m : Fin 200) :
    k0_pay4 (F := Ideal) x0 x4 (ix3 p n m)
      = Cert.RelAttn.score (fun e => x4 (ix1 e)) (fun r e => x0 (ix3 p r e)) n m := by
  unfold k0_pay4
  exact score_apply x0 x4 _ _ _ p n m

/-- The logits after the first two relation codes, read at `(p, n, m)`: the rectified score under code 2's weight
    vector where the pair's code is 2, else the one under code 1's where it is 1, else the fill value. -/
theorem pay3_apply (x0 : Vec Ideal S16x200x128 .f32) (x1 : Vec Ideal S16x200x200 .i32) (x2 x3 : Vec Ideal S128 .f32)
    (p : Fin 16) (n m : Fin 200) :
    k0_pay3 (F := Ideal) x0 x1 x2 x3 (ix3 p n m)
      = Scalar.select (IntOp.cmpi .eq (x1 (ix3 p n m)) 2#32)
          (Cert.RelAttn.lrelu (Cert.RelAttn.score (fun e => x3 (ix1 e)) (fun r e => x0 (ix3 p r e)) n m))
          (Scalar.select (IntOp.cmpi .eq (x1 (ix3 p n m)) 1#32)
            (Cert.RelAttn.lrelu (Cert.RelAttn.score (fun e => x2 (ix1 e)) (fun r e => x0 (ix3 p r e)) n m))
            Cert.RelAttn.negBig) := by
  unfold k0_pay3
  refine (pickLeaky_apply x1 2#32 _ _ _).trans ?_
  refine select_congr _ (congrArg Cert.RelAttn.lrelu (score_apply x0 x3 _ _ _ p n m)) ?_
  refine (pickLeaky_apply x1 1#32 _ _ _).trans ?_
  exact select_congr _ (congrArg Cert.RelAttn.lrelu (score_apply x0 x2 _ _ _ p n m)) rfl

/-- Entry `(p, n, d)` of the value the body stores, computed from a block of 16 batch members of the features `x0`, the
    matching block of relation codes `x1` and the four weight vectors, is the attention output of batch member `p` of
    the block. -/
theorem payload_apply (x0 : Vec Ideal S16x200x128 .f32) (x1 : Vec Ideal S16x200x200 .i32)
    (x2 x3 x4 x5 : Vec Ideal S128 .f32) (p : Fin 16) (n : Fin 200) (d : Fin 128) :
    k0_pay1 (F := Ideal) x0 x1 (k0_pay2 x0) x5 (k0_pay3 x0 x1 x2 x3) (k0_pay4 x0 x4) (ix3 p n d)
      = Cert.RelAttn.attn (B := 16) x0 x1 x2 x3 x4 x5 p n d := by
  show _ = ∑ m : Fin 200, Cert.RelAttn.weight (Cert.RelAttn.logit (fun e => x2 (ix1 e)) (fun e => x3 (ix1 e))
    (fun e => x4 (ix1 e)) (fun e => x5 (ix1 e)) (fun r e => x0 (ix3 p r e)) (fun r s => x1 (ix3 p r s)) n) m
      * x0 (ix3 p m d)
  unfold k0_pay1
  refine (outProduct_apply _ x0 _ p n d).trans ?_
  refine Finset.sum_congr rfl fun m _ => congrArg (· * x0 (ix3 p m d)) ?_
  refine (weight_apply _ _ _ _ _ _ _ _ _ _ _ p n m).trans ?_
  refine congrArg (fun L => Cert.RelAttn.weight L m) (funext fun k => ?_)
  unfold Cert.RelAttn.logit
  refine (pickLeaky_apply x1 4#32 _ _ _).trans ?_
  refine select_congr _ (congrArg Cert.RelAttn.lrelu (score_apply x0 x5 _ _ _ p n k)) ?_
  refine (pickLeaky_apply x1 3#32 _ _ _).trans ?_
  exact select_congr _ (congrArg Cert.RelAttn.lrelu (pay4_apply x0 x4 p n k)) (pay3_apply x0 x1 x2 x3 p n k)

end Cert.KernelIdeal.PayloadValue

end
-- ==== Proof.KernelArray.lean ====
/-
  The kernel's output array after the run is the attention output of the whole argument arrays.
-/
import proofs.«124925_j68453188764260_1_alg».proof.Proof.Gen.KernelIdeal.Value
import proofs.«124925_j68453188764260_1_alg».proof.Proof.KernelPayload

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The zero offset of a rank-3 whole-block rectangle. -/
theorem zero_off3 : (![0, 0, 0] : Fin 3 → Nat) = fun _ => 0 := funext fun a => by fin_cases a <;> rfl
/-- The zero offset of a rank-1 whole-block rectangle. -/
theorem zero_off1 : (![0] : Fin 1 → Nat) = fun _ => 0 := funext fun a => by fin_cases a <;> rfl

/-- The block index maps over the 32 grid points: point `t` takes block `t` of the batch axis of the features, of the
    relation codes and of the output, the whole of the other two axes, and the whole of each weight vector. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 1) = 0 ∧ win0_3.index t (0 : Fin 1) = 0
    ∧ win0_4.index t (0 : Fin 1) = 0 ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

/-- Entry `(p, n, d)` of the stored value is entry `(b, n, d)` of the whole-array attention output when the block of
    features and the block of relation codes hold batch member `b` of the arrays at their member `p`, and the four
    weight vectors are the arrays'. -/
theorem point_value (H : S512x200x128.Idx → EReal) (A : S512x200x200.Idx → BitVec 32) (a0 a1 a2 a3 : S128.Idx → EReal)
    (x0 : Vec Ideal S16x200x128 .f32) (x1 : Vec Ideal S16x200x200 .i32) (x2 x3 x4 x5 : Vec Ideal S128 .f32)
    (p : Fin 16) (b : Fin 512) (n : Fin 200) (d : Fin 128)
    (h0 : ∀ (r : Fin 200) (e : Fin 128), x0 (ix3 p r e) = H (ix3 b r e))
    (h1 : ∀ (r s : Fin 200), x1 (ix3 p r s) = A (ix3 b r s))
    (h2 : x2 = a0) (h3 : x3 = a1) (h4 : x4 = a2) (h5 : x5 = a3) :
    k0_pay1 (F := Ideal) x0 x1 (k0_pay2 x0) x5 (k0_pay3 x0 x1 x2 x3) (k0_pay4 x0 x4) (ix3 p n d)
      = Cert.RelAttn.whole H A a0 a1 a2 a3 (ix3 b n d) := by
  rw [PayloadValue.payload_apply]
  subst h2 h3 h4 h5
  unfold Cert.RelAttn.whole Cert.RelAttn.attn
  show Cert.RelAttn.out _ _ _ _ (fun r e => x0 (ix3 p r e)) (fun r s => x1 (ix3 p r s)) n d
    = Cert.RelAttn.out _ _ _ _ (fun r e => H (ix3 b r e)) (fun r s => A (ix3 b r s)) n d
  rw [funext fun r => funext fun e => h0 r e, funext fun r => funext fun s => h1 r s]

/-- The block of features at point `t` holds batch members `16 t … 16 t + 15` of the feature array. -/
theorem feature_block (c : Dev nD) (t : Fin cfg0.N) (p : Fin 16) (r : Fin 200) (e : Fin 128)
    (hb : 16 * t.val + p.val < 512) :
    (iblk m c 0 t : Vec Ideal S16x200x128 .f32) (ix3 p r e)
      = (m ((c : Thread nD τ).loc main_arg0) : S512x200x128.Idx → EReal) (ix3 ⟨16 * t.val + p.val, hb⟩ r e) := by
  obtain ⟨e00, e01, e02, -⟩ := block_index t
  unfold iblk
  rw [View.read_apply]
  show V m c main_arg0 _ = _
  unfold V
  congr 1
  funext a
  apply Fin.ext
  match a with
  | ⟨0, _⟩ => show win0_0.index t (0 : Fin 3) * 16 + 1 * p.val = 16 * t.val + p.val; omega
  | ⟨1, _⟩ => show win0_0.index t (1 : Fin 3) * 200 + 1 * r.val = r.val; omega
  | ⟨2, _⟩ => show win0_0.index t (2 : Fin 3) * 128 + 1 * e.val = e.val; omega

/-- The block of relation codes at point `t` holds batch members `16 t … 16 t + 15` of the relation array. -/
theorem relation_block (c : Dev nD) (t : Fin cfg0.N) (p : Fin 16) (r s : Fin 200)
    (hb : 16 * t.val + p.val < 512) :
    (iblk m c 1 t : Vec Ideal S16x200x200 .i32) (ix3 p r s)
      = (m ((c : Thread nD τ).loc main_arg1) : S512x200x200.Idx → BitVec 32) (ix3 ⟨16 * t.val + p.val, hb⟩ r s) := by
  obtain ⟨-, -, -, e10, e11, e12, -⟩ := block_index t
  unfold iblk
  rw [View.read_apply]
  show V m c main_arg1 _ = _
  unfold V
  congr 1
  funext a
  apply Fin.ext
  match a with
  | ⟨0, _⟩ => show win0_1.index t (0 : Fin 3) * 16 + 1 * p.val = 16 * t.val + p.val; omega
  | ⟨1, _⟩ => show win0_1.index t (1 : Fin 3) * 200 + 1 * r.val = r.val; omega
  | ⟨2, _⟩ => show win0_1.index t (2 : Fin 3) * 200 + 1 * s.val = s.val; omega

/-- Each weight vector's block at any point is the whole vector. -/
theorem weight_block2 (c : Dev nD) (t : Fin cfg0.N) :
    (iblk m c 2 t : Vec Ideal S128 .f32) = (m ((c : Thread nD τ).loc main_arg2) : S128.Idx → EReal) := by
  obtain ⟨-, -, -, -, -, -, e2, -⟩ := block_index t
  funext j
  unfold iblk
  rw [View.read_apply]
  show V m c main_arg2 _ = _
  unfold V
  congr 1
  funext a
  apply Fin.ext
  match a with
  | ⟨0, _⟩ => show win0_2.index t (0 : Fin 1) * 128 + 1 * (j 0).val = (j 0).val; omega

theorem weight_block3 (c : Dev nD) (t : Fin cfg0.N) :
    (iblk m c 3 t : Vec Ideal S128 .f32) = (m ((c : Thread nD τ).loc main_arg3) : S128.Idx → EReal) := by
  obtain ⟨-, -, -, -, -, -, -, e3, -⟩ := block_index t
  funext j
  unfold iblk
  rw [View.read_apply]
  show V m c main_arg3 _ = _
  unfold V
  congr 1
  funext a
  apply Fin.ext
  match a with
  | ⟨0, _⟩ => show win0_3.index t (0 : Fin 1) * 128 + 1 * (j 0).val = (j 0).val; omega

theorem weight_block4 (c : Dev nD) (t : Fin cfg0.N) :
    (iblk m c 4 t : Vec Ideal S128 .f32) = (m ((c : Thread nD τ).loc main_arg4) : S128.Idx → EReal) := by
  obtain ⟨-, -, -, -, -, -, -, -, e4, -⟩ := block_index t
  funext j
  unfold iblk
  rw [View.read_apply]
  show V m c main_arg4 _ = _
  unfold V
  congr 1
  funext a
  apply Fin.ext
  match a with
  | ⟨0, _⟩ => show win0_4.index t (0 : Fin 1) * 128 + 1 * (j 0).val = (j 0).val; omega

theorem weight_block5 (c : Dev nD) (t : Fin cfg0.N) :
    (iblk m c 5 t : Vec Ideal S128 .f32) = (m ((c : Thread nD τ).loc main_arg5) : S128.Idx → EReal) := by
  obtain ⟨-, -, -, -, -, -, -, -, -, e5, -⟩ := block_index t
  funext j
  unfold iblk
  rw [View.read_apply]
  show V m c main_arg5 _ = _
  unfold V
  congr 1
  funext a
  apply Fin.ext
  match a with
  | ⟨0, _⟩ => show win0_5.index t (0 : Fin 1) * 128 + 1 * (j 0).val = (j 0).val; omega

/-- What point `t` writes back is block `t` of the whole-array attention output of the argument arrays. -/
theorem flushed_eq (c : Dev nD) (t : Fin cfg0.N) :
    (dats m 0 c).flushed 6 t = ((cfg0.win 6).blk t).view.read (Elt Ideal)
      (Cert.RelAttn.whole (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))) := by
  rw [Value.flushed6]
  unfold Gen.out0_6
  rw [View.canon_unit_zero zero_off3]
  simp only [View.ld_unit_zero (S := S16x200x128) zero_off3, View.ld_unit_zero (S := S16x200x200) zero_off3,
    View.ld_unit_zero (S := S128) zero_off1]
  have ht : t.val < 32 := lt_of_lt_of_eq t.isLt (N_0 : cfg0.N = 32)
  obtain ⟨-, -, -, -, -, -, -, -, -, -, e60, e61, e62⟩ := block_index t
  have key : ∀ y : S16x200x128.Idx,
      k0_pay1 (F := Ideal) (iblk m c 0 t) (iblk m c 1 t) (k0_pay2 (iblk m c 0 t)) (iblk m c 5 t)
          (k0_pay3 (iblk m c 0 t) (iblk m c 1 t) (iblk m c 2 t) (iblk m c 3 t)) (k0_pay4 (iblk m c 0 t) (iblk m c 4 t)) y
        = Cert.RelAttn.whole (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (((cfg0.win 6).blk t).view.emb y) := by
    intro y
    obtain ⟨p, n, d, rfl⟩ : ∃ (p : Fin 16) (n : Fin 200) (d : Fin 128), y = ix3 p n d := ⟨y 0, y 1, y 2, eq_ix3 y⟩
    have hb : 16 * t.val + p.val < 512 := by have := p.isLt; omega
    have hi : ((cfg0.win 6).blk t).view.emb (ix3 p n d) = (ix3 ⟨16 * t.val + p.val, hb⟩ n d : S512x200x128.Idx) := by
      funext a
      apply Fin.ext
      match a with
      | ⟨0, _⟩ => show win0_6.index t (0 : Fin 3) * 16 + 1 * p.val = 16 * t.val + p.val; omega
      | ⟨1, _⟩ => show win0_6.index t (1 : Fin 3) * 200 + 1 * n.val = n.val; omega
      | ⟨2, _⟩ => show win0_6.index t (2 : Fin 3) * 128 + 1 * d.val = d.val; omega
    rw [hi]
    exact point_value _ _ _ _ _ _ _ _ _ _ _ _ p ⟨16 * t.val + p.val, hb⟩ n d
      (fun r e => feature_block m c t p r e hb) (fun r s => relation_block m c t p r s hb)
      (weight_block2 m c t) (weight_block3 m c t) (weight_block4 m c t) (weight_block5 m c t)
  funext y
  exact key y

/-- An index of the output array is in point `t`'s block iff each coordinate is in the block's range on its axis. -/
theorem mem_block (t : Fin cfg0.N) (i : S512x200x128.Idx) :
    i ∈ ((cfg0.win 6).blk t).view.set ↔ ∀ a : Fin 3, win0_6.index t a * S16x200x128.size a ≤ (i a).val ∧ (i a).val < win0_6.index t a * S16x200x128.size a + S16x200x128.size a := by
  show i ∈ ((View.whole main_v0).slice (win0_6.rect t)).set ↔ _
  rw [View.set_slice_whole, Rect.mem_set_unit]
  exact Iff.rfl

/-- Every index of the output array is in the block of the point its batch coordinate divided by 16 names. -/
theorem cover (i : S512x200x128.Idx) :
    ∃ t : Fin cfg0.N, (cfg0.win 6).flush t = true ∧ i ∈ ((cfg0.win 6).blk t).view.set := by
  have hi0 : (i 0).val < 512 := (i 0).isLt
  have hi1 : (i 1).val < 200 := (i 1).isLt
  have hi2 : (i 2).val < 128 := (i 2).isLt
  have hN : cfg0.N = 32 := N_0
  let t : Fin cfg0.N := ⟨(i 0).val / 16, by rw [hN]; omega⟩
  have htv : t.val = (i 0).val / 16 := rfl
  obtain ⟨-, -, -, -, -, -, -, -, -, -, e60, e61, e62⟩ := block_index t
  refine ⟨t, flush0_6 t, ?_⟩
  rw [mem_block]
  intro a
  match a with
  | ⟨0, _⟩ => show win0_6.index t (0 : Fin 3) * 16 ≤ (i 0).val ∧ (i 0).val < win0_6.index t (0 : Fin 3) * 16 + 16; omega
  | ⟨1, _⟩ => show win0_6.index t (1 : Fin 3) * 200 ≤ (i 1).val ∧ (i 1).val < win0_6.index t (1 : Fin 3) * 200 + 200; omega
  | ⟨2, _⟩ => show win0_6.index t (2 : Fin 3) * 128 ≤ (i 2).val ∧ (i 2).val < win0_6.index t (2 : Fin 3) * 128 + 128; omega

/-- The output array after the last point is the whole-array attention output of the argument arrays. -/
theorem final (c : Dev nD) : (dats m 0 c).arrAt 6 cfg0.N
    = Cert.RelAttn.whole (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) :=
  (dats m 0 c).arrAt_eq_of_cover 6 _ (fun t _ => flushed_eq m c t) cover

/-- Every weakly fair execution of the kernel's program terminates with the output array at the attention output of
    the argument arrays as launched, and the arguments unchanged. -/
theorem run : θ_run defs (onTc (τ := τ) (main (F := Ideal))) ⟨m, fun _ => 0, ρ⟩ fun r => ∀ c : Dev nD,
      r.2.mem ((c : Thread nD τ).loc main_v0)
        = Cert.RelAttn.whole (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.RefTerm.lean ====
/-
  The reference program's result as one term of its argument arrays, stage by stage.

  The reference computes, for each of the four weight vectors, the batched bilinear scores of all ordered pairs of
  nodes (`scores`), passes them through the leaky rectifier (`leaky`), and keeps them where the relation code of the
  pair equals the vector's code (`pick`), starting from an array filled with a large negative number; the rows of the
  resulting logits are shifted by their maxima, exponentiated and normalised by their sums (`softmaxRows`); the
  result is the batched product of these weights with the feature rows (`result`).
-/
import proofs.«124925_j68453188764260_1_alg».proof.Proof.Gen.ReferenceIdeal

noncomputable section

namespace Cert.ReferenceIdeal.Term

open Cert.ReferenceIdeal Cert.ReferenceIdeal.Gen Idealize.ShloMosaic

variable {F : FTy → Type} [FloatOps F]

/-- The batched bilinear scores under one weight vector: the features scaled lane by lane by the weights, against the
    features, contracted over the lanes within each batch member. -/
def scores (h : FVec F S512x200x128 .f32) (a : FVec F S128 .f32) : FVec F S512x200x200 .f32 :=
  Host.dotGeneral dot_S512x200x128_S512x200x128_S512x200x200_2_2_1_1_0_0 none
    (mulf h (broadcastInDim S512x200x128 ![0, 1, 2] bcast_S1x1x128_S512x200x128_0_1_2
      (broadcastInDim S1x1x128 ![2] bcast_S128_S1x1x128_2 a))) h

/-- The leaky rectifier over an array of scores: the score where it is at least zero, the slope times it elsewhere. -/
def leaky (x : FVec F S512x200x200 .f32) (sl : FVec F S_ .f32) : FVec F S512x200x200 .f32 :=
  select (cmpf .oge x (broadcastInDim S512x200x200 ![] bcast_S_S512x200x200 (constant S_ .f32 0x00000000#32))) x
    (mulf (broadcastInDim S512x200x200 ![] bcast_S_S512x200x200 (id sl)) x)

/-- Keep `s` where the relation code equals `k`, and `prev` elsewhere. -/
def pick (adj : IVec S512x200x200 32) (k : BitVec 32) (s prev : FVec F S512x200x200 .f32) : FVec F S512x200x200 .f32 :=
  select (cmpi .eq adj (broadcastInDim S512x200x200 ![] bcast_S_S512x200x200 (constantI S_ 32 k))) s prev

/-- The logits: the four rectified score arrays picked by relation code over the large negative fill. -/
def logits (h : FVec F S512x200x128 .f32) (adj : IVec S512x200x200 32) (a0 a1 a2 a3 : FVec F S128 .f32) :
    FVec F S512x200x200 .f32 :=
  pick adj 4#32 (leaky (scores h a3) (constant S_ .f32 0x3E4CCCCD#32))
    (pick adj 3#32 (leaky (scores h a2) (constant S_ .f32 0x3E4CCCCD#32))
      (pick adj 2#32 (leaky (scores h a1) (constant S_ .f32 0x3E4CCCCD#32))
        (pick adj 1#32 (leaky (scores h a0) (constant S_ .f32 0x3E4CCCCD#32))
          (broadcastInDim S512x200x200 ![] bcast_S_S512x200x200 (constant S_ .f32 0xD9FFCB9E#32)))))

/-- The logits' rows shifted by their maxima and exponentiated. -/
def expRows (x : FVec F S512x200x200 .f32) : FVec F S512x200x200 .f32 :=
  Host.exp (subf x
    (broadcastInDim S512x200x200 ![0, 1, 2] bcast_S512x200x1_S512x200x200_0_1_2
      (broadcastInDim S512x200x1 ![0, 1] bcast_S512x200_S512x200x1_0_1
        (maximumf (broadcastInDim S512x200 ![] bcast_S_S512x200 (constant S_ .f32 0xFF800000#32))
          (Host.reduce FloatOps.maximumf x (constant S_ .f32 0xFF800000#32) reducesTo_S512x200x200_S512x200_d2 h_S_)))))

/-- Rows of exponentials normalised by their sums. -/
def normRows (e : FVec F S512x200x200 .f32) : FVec F S512x200x200 .f32 :=
  Host.divf e
    (broadcastInDim S512x200x200 ![0, 1, 2] bcast_S512x200x1_S512x200x200_0_1_2
      (broadcastInDim S512x200x1 ![0, 1] bcast_S512x200_S512x200x1_0_1
        (Host.reduceAdd e (constant S_ .f32 0x00000000#32) reducesTo_S512x200x200_S512x200_d2 h_S_)))

/-- The reference's result: the normalised weights against the feature rows, within each batch member. -/
def result (h : FVec F S512x200x128 .f32) (adj : IVec S512x200x200 32) (a0 a1 a2 a3 : FVec F S128 .f32) :
    FVec F S512x200x128 .f32 :=
  Host.dotGeneral dot_S512x200x200_S512x200x128_S512x200x128_2_1_1_2_0_0 none
    (normRows (expRows (logits h adj a0 a1 a2 a3))) h

end Cert.ReferenceIdeal.Term

end
-- ==== Proof.RefRun.lean ====
/-
  The reference program's run: every weakly fair execution terminates with the result buffer at the reference's term
  of the argument arrays, the arguments unchanged.

  The program is a straight line of host operations once the two outlined functions (the leaky rectifier and the
  selection) are unfolded at their eight calls: eighty-one operations, each writing one buffer of its own. What a
  buffer holds at the end is then read back stage by stage: the line is cut into the fill, for each of the four
  weight vectors a stretch computing the scores and a stretch rectifying and selecting them, and the final stretch
  normalising the rows and taking the product with the features; each stretch is read for an arbitrary starting
  valuation, and the readings compose.
-/
import proofs.«124925_j68453188764260_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's eighty-one operations in order, the calls of the two outlined functions unfolded: the fill; for each
    weight vector the code constant, its broadcast, the comparison with the relation codes, the two broadcasts of the
    weights, the scaling of the features, the batched product, the slope constant, the rectifier's seven operations
    and the selection; then the fifteen operations of the row normalisation and the final product. -/
abbrev ops : List (HloOp τ sig (Elt F)) :=
  [ nullary main_cst (constant S_ .f32 0xD9FFCB9E#32),
    unary main_cst main_v0 (broadcastInDim S512x200x200 ![] bcast_S_S512x200x200 : (⟨S_, .f32⟩ : BufTy).Contents (Elt F) → (⟨S512x200x200, .f32⟩ : BufTy).Contents (Elt F)),
    nullary main_c (constantI S_ 32 1#32),
    unary main_c main_v1 (broadcastInDim S512x200x200 ![] bcast_S_S512x200x200 : (⟨S_, .i32⟩ : BufTy).Contents (Elt F) → (⟨S512x200x200, .i32⟩ : BufTy).Contents (Elt F)),
    binary main_arg1 main_v1 main_v2 (cmpi .eq : (⟨S512x200x200, .i32⟩ : BufTy).Contents (Elt F) → (⟨S512x200x200, .i32⟩ : BufTy).Contents (Elt F) → (⟨S512x200x200, .i1⟩ : BufTy).Contents (Elt F)),
    unary main_arg2 main_v3 (broadcastInDim S1x1x128 ![2] bcast_S128_S1x1x128_2 : (⟨S128, .f32⟩ : BufTy).Contents (Elt F) → (⟨S1x1x128, .f32⟩ : BufTy).Contents (Elt F)),
    unary main_v3 main_v4 (broadcastInDim S512x200x128 ![0, 1, 2] bcast_S1x1x128_S512x200x128_0_1_2 : (⟨S1x1x128, .f32⟩ : BufTy).Contents (Elt F) → (⟨S512x200x128, .f32⟩ : BufTy).Contents (Elt F)),
    binary main_arg0 main_v4 main_v5 (mulf : (⟨S512x200x128, .f32⟩ : BufTy).Contents (Elt F) → (⟨S512x200x128, .f32⟩ : BufTy).Contents (Elt F) → (⟨S512x200x128, .f32⟩ : BufTy).Contents (Elt F)),
    binary main_v5 main_arg0 main_v6 ((fun l r => Host.dotGeneral dot_S512x200x128_S512x200x128_S512x200x200_2_2_1_1_0_0 none l r) : (⟨S512x200x128, .f32⟩ : BufTy).Contents (Elt F) → (⟨S512x200x128, .f32⟩ : BufTy).Contents (Elt F) → (⟨S512x200x200, .f32⟩ : BufTy).Contents (Elt F)),
    nullary main_cst_0 (constant S_ .f32 0x3E4CCCCD#32),
    TRef.nullary main_call0.cst (constant S_ .f32 0x00000000#32),
    TRef.unary main_call0.cst main_call0.v0 (broadcastInDim S512x200x200 ![] bcast_S_S512x200x200),
    TRef.binary (.of main_v6 : TRef sig ⟨S512x200x200, .f32⟩) main_call0.v0 main_call0.v1 (cmpf .oge),
    TRef.unary (.of main_cst_0 : TRef sig ⟨S_, .f32⟩) main_call0.v2 id,
    TRef.unary main_call0.v2 main_call0.v3 (broadcastInDim S512x200x200 ![] bcast_S_S512x200x200),
    TRef.binary main_call0.v3 (.of main_v6 : TRef sig ⟨S512x200x200, .f32⟩) main_call0.v4 mulf,
    TRef.ternary main_call0.v1 (.of main_v6 : TRef sig ⟨S512x200x200, .f32⟩) main_call0.v4 main_call0.call0.v0 select,
    TRef.ternary (.of main_v2 : TRef sig ⟨S512x200x200, .i1⟩) (.of main_v7 : TRef sig ⟨S512x200x200, .f32⟩) (.of main_v0 : TRef sig ⟨S512x200x200, .f32⟩) main_call1.v0 select,
    nullary main_c_1 (constantI S_ 32 2#32),
    unary main_c_1 main_v9 (broadcastInDim S512x200x200 ![] bcast_S_S512x200x200 : (⟨S_, .i32⟩ : BufTy).Contents (Elt F) → (⟨S512x200x200, .i32⟩ : BufTy).Contents (Elt F)),
    binary main_arg1 main_v9 main_v10 (cmpi .eq : (⟨S512x200x200, .i32⟩ : BufTy).Contents (Elt F) → (⟨S512x200x200, .i32⟩ : BufTy).Contents (Elt F) → (⟨S512x200x200, .i1⟩ : BufTy).Contents (Elt F)),
    unary main_arg3 main_v11 (broadcastInDim S1x1x128 ![2] bcast_S128_S1x1x128_2 : (⟨S128, .f32⟩ : BufTy).Contents (Elt F) → (⟨S1x1x128, .f32⟩ : BufTy).Contents (Elt F)),
    unary main_v11 main_v12 (broadcastInDim S512x200x128 ![0, 1, 2] bcast_S1x1x128_S512x200x128_0_1_2 : (⟨S1x1x128, .f32⟩ : BufTy).Contents (Elt F) → (⟨S512x200x128, .f32⟩ : BufTy).Contents (Elt F)),
    binary main_arg0 main_v12 main_v13 (mulf : (⟨S512x200x128, .f32⟩ : BufTy).Contents (Elt F) → (⟨S512x200x128, .f32⟩ : BufTy).Contents (Elt F) → (⟨S512x200x128, .f32⟩ : BufTy).Contents (Elt F)),
    binary main_v13 main_arg0 main_v14 ((fun l r => Host.dotGeneral dot_S512x200x128_S512x200x128_S512x200x200_2_2_1_1_0_0 none l r) : (⟨S512x200x128, .f32⟩ : BufTy).Contents (Elt F) → (⟨S512x200x128, .f32⟩ : BufTy).Contents (Elt F) → (⟨S512x200x200, .f32⟩ : BufTy).Contents (Elt F)),
    nullary main_cst_2 (constant S_ .f32 0x3E4CCCCD#32),
    TRef.nullary main_call2.cst (constant S_ .f32 0x00000000#32),
    TRef.unary main_call2.cst main_call2.v0 (broadcastInDim S512x200x200 ![] bcast_S_S512x200x200),
    TRef.binary (.of main_v14 : TRef sig ⟨S512x200x200, .f32⟩) main_call2.v0 main_call2.v1 (cmpf .oge),
    TRef.unary (.of main_cst_2 : TRef sig ⟨S_, .f32⟩) main_call2.v2 id,
    TRef.unary main_call2.v2 main_call2.v3 (broadcastInDim S512x200x200 ![] bcast_S_S512x200x200),
    TRef.binary main_call2.v3 (.of main_v14 : TRef sig ⟨S512x200x200, .f32⟩) main_call2.v4 mulf,
    TRef.ternary main_call2.v1 (.of main_v14 : TRef sig ⟨S512x200x200, .f32⟩) main_call2.v4 main_call2.call0.v0 select,
    TRef.ternary (.of main_v10 : TRef sig ⟨S512x200x200, .i1⟩) (.of main_v15 : TRef sig ⟨S512x200x200, .f32⟩) (.of main_v8 : TRef sig ⟨S512x200x200, .f32⟩) main_call3.v0 select,
    nullary main_c_3 (constantI S_ 32 3#32),
    unary main_c_3 main_v17 (broadcastInDim S512x200x200 ![] bcast_S_S512x200x200 : (⟨S_, .i32⟩ : BufTy).Contents (Elt F) → (⟨S512x200x200, .i32⟩ : BufTy).Contents (Elt F)),
    binary main_arg1 main_v17 main_v18 (cmpi .eq : (⟨S512x200x200, .i32⟩ : BufTy).Contents (Elt F) → (⟨S512x200x200, .i32⟩ : BufTy).Contents (Elt F) → (⟨S512x200x200, .i1⟩ : BufTy).Contents (Elt F)),
    unary main_arg4 main_v19 (broadcastInDim S1x1x128 ![2] bcast_S128_S1x1x128_2 : (⟨S128, .f32⟩ : BufTy).Contents (Elt F) → (⟨S1x1x128, .f32⟩ : BufTy).Contents (Elt F)),
    unary main_v19 main_v20 (broadcastInDim S512x200x128 ![0, 1, 2] bcast_S1x1x128_S512x200x128_0_1_2 : (⟨S1x1x128, .f32⟩ : BufTy).Contents (Elt F) → (⟨S512x200x128, .f32⟩ : BufTy).Contents (Elt F)),
    binary main_arg0 main_v20 main_v21 (mulf : (⟨S512x200x128, .f32⟩ : BufTy).Contents (Elt F) → (⟨S512x200x128, .f32⟩ : BufTy).Contents (Elt F) → (⟨S512x200x128, .f32⟩ : BufTy).Contents (Elt F)),
    binary main_v21 main_arg0 main_v22 ((fun l r => Host.dotGeneral dot_S512x200x128_S512x200x128_S512x200x200_2_2_1_1_0_0 none l r) : (⟨S512x200x128, .f32⟩ : BufTy).Contents (Elt F) → (⟨S512x200x128, .f32⟩ : BufTy).Contents (Elt F) → (⟨S512x200x200, .f32⟩ : BufTy).Contents (Elt F)),
    nullary main_cst_4 (constant S_ .f32 0x3E4CCCCD#32),
    TRef.nullary main_call4.cst (constant S_ .f32 0x00000000#32),
    TRef.unary main_call4.cst main_call4.v0 (broadcastInDim S512x200x200 ![] bcast_S_S512x200x200),
    TRef.binary (.of main_v22 : TRef sig ⟨S512x200x200, .f32⟩) main_call4.v0 main_call4.v1 (cmpf .oge),
    TRef.unary (.of main_cst_4 : TRef sig ⟨S_, .f32⟩) main_call4.v2 id,
    TRef.unary main_call4.v2 main_call4.v3 (broadcastInDim S512x200x200 ![] bcast_S_S512x200x200),
    TRef.binary main_call4.v3 (.of main_v22 : TRef sig ⟨S512x200x200, .f32⟩) main_call4.v4 mulf,
    TRef.ternary main_call4.v1 (.of main_v22 : TRef sig ⟨S512x200x200, .f32⟩) main_call4.v4 main_call4.call0.v0 select,
    TRef.ternary (.of main_v18 : TRef sig ⟨S512x200x200, .i1⟩) (.of main_v23 : TRef sig ⟨S512x200x200, .f32⟩) (.of main_v16 : TRef sig ⟨S512x200x200, .f32⟩) main_call5.v0 select,
    nullary main_c_5 (constantI S_ 32 4#32),
    unary main_c_5 main_v25 (broadcastInDim S512x200x200 ![] bcast_S_S512x200x200 : (⟨S_, .i32⟩ : BufTy).Contents (Elt F) → (⟨S512x200x200, .i32⟩ : BufTy).Contents (Elt F)),
    binary main_arg1 main_v25 main_v26 (cmpi .eq : (⟨S512x200x200, .i32⟩ : BufTy).Contents (Elt F) → (⟨S512x200x200, .i32⟩ : BufTy).Contents (Elt F) → (⟨S512x200x200, .i1⟩ : BufTy).Contents (Elt F)),
    unary main_arg5 main_v27 (broadcastInDim S1x1x128 ![2] bcast_S128_S1x1x128_2 : (⟨S128, .f32⟩ : BufTy).Contents (Elt F) → (⟨S1x1x128, .f32⟩ : BufTy).Contents (Elt F)),
    unary main_v27 main_v28 (broadcastInDim S512x200x128 ![0, 1, 2] bcast_S1x1x128_S512x200x128_0_1_2 : (⟨S1x1x128, .f32⟩ : BufTy).Contents (Elt F) → (⟨S512x200x128, .f32⟩ : BufTy).Contents (Elt F)),
    binary main_arg0 main_v28 main_v29 (mulf : (⟨S512x200x128, .f32⟩ : BufTy).Contents (Elt F) → (⟨S512x200x128, .f32⟩ : BufTy).Contents (Elt F) → (⟨S512x200x128, .f32⟩ : BufTy).Contents (Elt F)),
    binary main_v29 main_arg0 main_v30 ((fun l r => Host.dotGeneral dot_S512x200x128_S512x200x128_S512x200x200_2_2_1_1_0_0 none l r) : (⟨S512x200x128, .f32⟩ : BufTy).Contents (Elt F) → (⟨S512x200x128, .f32⟩ : BufTy).Contents (Elt F) → (⟨S512x200x200, .f32⟩ : BufTy).Contents (Elt F)),
    nullary main_cst_6 (constant S_ .f32 0x3E4CCCCD#32),
    TRef.nullary main_call6.cst (constant S_ .f32 0x00000000#32),
    TRef.unary main_call6.cst main_call6.v0 (broadcastInDim S512x200x200 ![] bcast_S_S512x200x200),
    TRef.binary (.of main_v30 : TRef sig ⟨S512x200x200, .f32⟩) main_call6.v0 main_call6.v1 (cmpf .oge),
    TRef.unary (.of main_cst_6 : TRef sig ⟨S_, .f32⟩) main_call6.v2 id,
    TRef.unary main_call6.v2 main_call6.v3 (broadcastInDim S512x200x200 ![] bcast_S_S512x200x200),
    TRef.binary main_call6.v3 (.of main_v30 : TRef sig ⟨S512x200x200, .f32⟩) main_call6.v4 mulf,
    TRef.ternary main_call6.v1 (.of main_v30 : TRef sig ⟨S512x200x200, .f32⟩) main_call6.v4 main_call6.call0.v0 select,
    TRef.ternary (.of main_v26 : TRef sig ⟨S512x200x200, .i1⟩) (.of main_v31 : TRef sig ⟨S512x200x200, .f32⟩) (.of main_v24 : TRef sig ⟨S512x200x200, .f32⟩) main_call7.v0 select,
    nullary main_cst_7 (constant S_ .f32 0xFF800000#32),
    binary main_v32 main_cst_7 main_v33 ((fun x v => Host.reduce FloatOps.maximumf x v reducesTo_S512x200x200_S512x200_d2 h_S_) : (⟨S512x200x200, .f32⟩ : BufTy).Contents (Elt F) → (⟨S_, .f32⟩ : BufTy).Contents (Elt F) → (⟨S512x200, .f32⟩ : BufTy).Contents (Elt F)),
    nullary main_cst_8 (constant S_ .f32 0xFF800000#32),
    unary main_cst_8 main_v34 (broadcastInDim S512x200 ![] bcast_S_S512x200 : (⟨S_, .f32⟩ : BufTy).Contents (Elt F) → (⟨S512x200, .f32⟩ : BufTy).Contents (Elt F)),
    binary main_v34 main_v33 main_v35 (maximumf : (⟨S512x200, .f32⟩ : BufTy).Contents (Elt F) → (⟨S512x200, .f32⟩ : BufTy).Contents (Elt F) → (⟨S512x200, .f32⟩ : BufTy).Contents (Elt F)),
    unary main_v35 main_v36 (broadcastInDim S512x200x1 ![0, 1] bcast_S512x200_S512x200x1_0_1 : (⟨S512x200, .f32⟩ : BufTy).Contents (Elt F) → (⟨S512x200x1, .f32⟩ : BufTy).Contents (Elt F)),
    unary main_v36 main_v37 (broadcastInDim S512x200x200 ![0, 1, 2] bcast_S512x200x1_S512x200x200_0_1_2 : (⟨S512x200x1, .f32⟩ : BufTy).Contents (Elt F) → (⟨S512x200x200, .f32⟩ : BufTy).Contents (Elt F)),
    binary main_v32 main_v37 main_v38 (subf : (⟨S512x200x200, .f32⟩ : BufTy).Contents (Elt F) → (⟨S512x200x200, .f32⟩ : BufTy).Contents (Elt F) → (⟨S512x200x200, .f32⟩ : BufTy).Contents (Elt F)),
    unary main_v38 main_v39 (Host.exp : (⟨S512x200x200, .f32⟩ : BufTy).Contents (Elt F) → (⟨S512x200x200, .f32⟩ : BufTy).Contents (Elt F)),
    nullary main_cst_9 (constant S_ .f32 0x00000000#32),
    binary main_v39 main_cst_9 main_v40 ((fun x v => Host.reduceAdd x v reducesTo_S512x200x200_S512x200_d2 h_S_) : (⟨S512x200x200, .f32⟩ : BufTy).Contents (Elt F) → (⟨S_, .f32⟩ : BufTy).Contents (Elt F) → (⟨S512x200, .f32⟩ : BufTy).Contents (Elt F)),
    unary main_v40 main_v41 (broadcastInDim S512x200x1 ![0, 1] bcast_S512x200_S512x200x1_0_1 : (⟨S512x200, .f32⟩ : BufTy).Contents (Elt F) → (⟨S512x200x1, .f32⟩ : BufTy).Contents (Elt F)),
    unary main_v41 main_v42 (broadcastInDim S512x200x200 ![0, 1, 2] bcast_S512x200x1_S512x200x200_0_1_2 : (⟨S512x200x1, .f32⟩ : BufTy).Contents (Elt F) → (⟨S512x200x200, .f32⟩ : BufTy).Contents (Elt F)),
    binary main_v39 main_v42 main_v43 (Host.divf : (⟨S512x200x200, .f32⟩ : BufTy).Contents (Elt F) → (⟨S512x200x200, .f32⟩ : BufTy).Contents (Elt F) → (⟨S512x200x200, .f32⟩ : BufTy).Contents (Elt F)),
    binary main_v43 main_arg0 main_v44 ((fun l r => Host.dotGeneral dot_S512x200x200_S512x200x128_S512x200x128_2_1_1_2_0_0 none l r) : (⟨S512x200x200, .f32⟩ : BufTy).Contents (Elt F) → (⟨S512x200x128, .f32⟩ : BufTy).Contents (Elt F) → (⟨S512x200x128, .f32⟩ : BufTy).Contents (Elt F)) ]

-- both sides are one chain of eighty-one steps once the two functions are unfolded at their calls and sequencing is
-- re-associated, all of it by computation; the comparison recurses once per step
set_option maxRecDepth 8192 in
set_option maxHeartbeats 1600000 in
/-- The program is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., ternary_bufs_sub .., nullary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., ternary_bufs_sub .., nullary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., ternary_bufs_sub .., nullary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩

/-! ## The line in stretches -/

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! The fill; for each relation code the sixteen operations that compute the scores under its weight vector, rectify
    them and select them into the logits; the fifteen operations of the row normalisation and the final product. -/

abbrev opsFill : List (HloOp τ sig (Elt F)) :=
  [ nullary main_cst (constant S_ .f32 0xD9FFCB9E#32),
    unary main_cst main_v0 (broadcastInDim S512x200x200 ![] bcast_S_S512x200x200 : (⟨S_, .f32⟩ : BufTy).Contents (Elt F) → (⟨S512x200x200, .f32⟩ : BufTy).Contents (Elt F)) ]

abbrev opsCode1 : List (HloOp τ sig (Elt F)) :=
  [ nullary main_c (constantI S_ 32 1#32),
    unary main_c main_v1 (broadcastInDim S512x200x200 ![] bcast_S_S512x200x200 : (⟨S_, .i32⟩ : BufTy).Contents (Elt F) → (⟨S512x200x200, .i32⟩ : BufTy).Contents (Elt F)),
    binary main_arg1 main_v1 main_v2 (cmpi .eq : (⟨S512x200x200, .i32⟩ : BufTy).Contents (Elt F) → (⟨S512x200x200, .i32⟩ : BufTy).Contents (Elt F) → (⟨S512x200x200, .i1⟩ : BufTy).Contents (Elt F)),
    unary main_arg2 main_v3 (broadcastInDim S1x1x128 ![2] bcast_S128_S1x1x128_2 : (⟨S128, .f32⟩ : BufTy).Contents (Elt F) → (⟨S1x1x128, .f32⟩ : BufTy).Contents (Elt F)),
    unary main_v3 main_v4 (broadcastInDim S512x200x128 ![0, 1, 2] bcast_S1x1x128_S512x200x128_0_1_2 : (⟨S1x1x128, .f32⟩ : BufTy).Contents (Elt F) → (⟨S512x200x128, .f32⟩ : BufTy).Contents (Elt F)),
    binary main_arg0 main_v4 main_v5 (mulf : (⟨S512x200x128, .f32⟩ : BufTy).Contents (Elt F) → (⟨S512x200x128, .f32⟩ : BufTy).Contents (Elt F) → (⟨S512x200x128, .f32⟩ : BufTy).Contents (Elt F)),
    binary main_v5 main_arg0 main_v6 ((fun l r => Host.dotGeneral dot_S512x200x128_S512x200x128_S512x200x200_2_2_1_1_0_0 none l r) : (⟨S512x200x128, .f32⟩ : BufTy).Contents (Elt F) → (⟨S512x200x128, .f32⟩ : BufTy).Contents (Elt F) → (⟨S512x200x200, .f32⟩ : BufTy).Contents (Elt F)),
    nullary main_cst_0 (constant S_ .f32 0x3E4CCCCD#32),
    TRef.nullary main_call0.cst (constant S_ .f32 0x00000000#32),
    TRef.unary main_call0.cst main_call0.v0 (broadcastInDim S512x200x200 ![] bcast_S_S512x200x200),
    TRef.binary (.of main_v6 : TRef sig ⟨S512x200x200, .f32⟩) main_call0.v0 main_call0.v1 (cmpf .oge),
    TRef.unary (.of main_cst_0 : TRef sig ⟨S_, .f32⟩) main_call0.v2 id,
    TRef.unary main_call0.v2 main_call0.v3 (broadcastInDim S512x200x200 ![] bcast_S_S512x200x200),
    TRef.binary main_call0.v3 (.of main_v6 : TRef sig ⟨S512x200x200, .f32⟩) main_call0.v4 mulf,
    TRef.ternary main_call0.v1 (.of main_v6 : TRef sig ⟨S512x200x200, .f32⟩) main_call0.v4 main_call0.call0.v0 select,
    TRef.ternary (.of main_v2 : TRef sig ⟨S512x200x200, .i1⟩) (.of main_v7 : TRef sig ⟨S512x200x200, .f32⟩) (.of main_v0 : TRef sig ⟨S512x200x200, .f32⟩) main_call1.v0 select ]

abbrev opsCode2 : List (HloOp τ sig (Elt F)) :=
  [ nullary main_c_1 (constantI S_ 32 2#32),
    unary main_c_1 main_v9 (broadcastInDim S512x200x200 ![] bcast_S_S512x200x200 : (⟨S_, .i32⟩ : BufTy).Contents (Elt F) → (⟨S512x200x200, .i32⟩ : BufTy).Contents (Elt F)),
    binary main_arg1 main_v9 main_v10 (cmpi .eq : (⟨S512x200x200, .i32⟩ : BufTy).Contents (Elt F) → (⟨S512x200x200, .i32⟩ : BufTy).Contents (Elt F) → (⟨S512x200x200, .i1⟩ : BufTy).Contents (Elt F)),
    unary main_arg3 main_v11 (broadcastInDim S1x1x128 ![2] bcast_S128_S1x1x128_2 : (⟨S128, .f32⟩ : BufTy).Contents (Elt F) → (⟨S1x1x128, .f32⟩ : BufTy).Contents (Elt F)),
    unary main_v11 main_v12 (broadcastInDim S512x200x128 ![0, 1, 2] bcast_S1x1x128_S512x200x128_0_1_2 : (⟨S1x1x128, .f32⟩ : BufTy).Contents (Elt F) → (⟨S512x200x128, .f32⟩ : BufTy).Contents (Elt F)),
    binary main_arg0 main_v12 main_v13 (mulf : (⟨S512x200x128, .f32⟩ : BufTy).Contents (Elt F) → (⟨S512x200x128, .f32⟩ : BufTy).Contents (Elt F) → (⟨S512x200x128, .f32⟩ : BufTy).Contents (Elt F)),
    binary main_v13 main_arg0 main_v14 ((fun l r => Host.dotGeneral dot_S512x200x128_S512x200x128_S512x200x200_2_2_1_1_0_0 none l r) : (⟨S512x200x128, .f32⟩ : BufTy).Contents (Elt F) → (⟨S512x200x128, .f32⟩ : BufTy).Contents (Elt F) → (⟨S512x200x200, .f32⟩ : BufTy).Contents (Elt F)),
    nullary main_cst_2 (constant S_ .f32 0x3E4CCCCD#32),
    TRef.nullary main_call2.cst (constant S_ .f32 0x00000000#32),
    TRef.unary main_call2.cst main_call2.v0 (broadcastInDim S512x200x200 ![] bcast_S_S512x200x200),
    TRef.binary (.of main_v14 : TRef sig ⟨S512x200x200, .f32⟩) main_call2.v0 main_call2.v1 (cmpf .oge),
    TRef.unary (.of main_cst_2 : TRef sig ⟨S_, .f32⟩) main_call2.v2 id,
    TRef.unary main_call2.v2 main_call2.v3 (broadcastInDim S512x200x200 ![] bcast_S_S512x200x200),
    TRef.binary main_call2.v3 (.of main_v14 : TRef sig ⟨S512x200x200, .f32⟩) main_call2.v4 mulf,
    TRef.ternary main_call2.v1 (.of main_v14 : TRef sig ⟨S512x200x200, .f32⟩) main_call2.v4 main_call2.call0.v0 select,
    TRef.ternary (.of main_v10 : TRef sig ⟨S512x200x200, .i1⟩) (.of main_v15 : TRef sig ⟨S512x200x200, .f32⟩) (.of main_v8 : TRef sig ⟨S512x200x200, .f32⟩) main_call3.v0 select ]

abbrev opsCode3 : List (HloOp τ sig (Elt F)) :=
  [ nullary main_c_3 (constantI S_ 32 3#32),
    unary main_c_3 main_v17 (broadcastInDim S512x200x200 ![] bcast_S_S512x200x200 : (⟨S_, .i32⟩ : BufTy).Contents (Elt F) → (⟨S512x200x200, .i32⟩ : BufTy).Contents (Elt F)),
    binary main_arg1 main_v17 main_v18 (cmpi .eq : (⟨S512x200x200, .i32⟩ : BufTy).Contents (Elt F) → (⟨S512x200x200, .i32⟩ : BufTy).Contents (Elt F) → (⟨S512x200x200, .i1⟩ : BufTy).Contents (Elt F)),
    unary main_arg4 main_v19 (broadcastInDim S1x1x128 ![2] bcast_S128_S1x1x128_2 : (⟨S128, .f32⟩ : BufTy).Contents (Elt F) → (⟨S1x1x128, .f32⟩ : BufTy).Contents (Elt F)),
    unary main_v19 main_v20 (broadcastInDim S512x200x128 ![0, 1, 2] bcast_S1x1x128_S512x200x128_0_1_2 : (⟨S1x1x128, .f32⟩ : BufTy).Contents (Elt F) → (⟨S512x200x128, .f32⟩ : BufTy).Contents (Elt F)),
    binary main_arg0 main_v20 main_v21 (mulf : (⟨S512x200x128, .f32⟩ : BufTy).Contents (Elt F) → (⟨S512x200x128, .f32⟩ : BufTy).Contents (Elt F) → (⟨S512x200x128, .f32⟩ : BufTy).Contents (Elt F)),
    binary main_v21 main_arg0 main_v22 ((fun l r => Host.dotGeneral dot_S512x200x128_S512x200x128_S512x200x200_2_2_1_1_0_0 none l r) : (⟨S512x200x128, .f32⟩ : BufTy).Contents (Elt F) → (⟨S512x200x128, .f32⟩ : BufTy).Contents (Elt F) → (⟨S512x200x200, .f32⟩ : BufTy).Contents (Elt F)),
    nullary main_cst_4 (constant S_ .f32 0x3E4CCCCD#32),
    TRef.nullary main_call4.cst (constant S_ .f32 0x00000000#32),
    TRef.unary main_call4.cst main_call4.v0 (broadcastInDim S512x200x200 ![] bcast_S_S512x200x200),
    TRef.binary (.of main_v22 : TRef sig ⟨S512x200x200, .f32⟩) main_call4.v0 main_call4.v1 (cmpf .oge),
    TRef.unary (.of main_cst_4 : TRef sig ⟨S_, .f32⟩) main_call4.v2 id,
    TRef.unary main_call4.v2 main_call4.v3 (broadcastInDim S512x200x200 ![] bcast_S_S512x200x200),
    TRef.binary main_call4.v3 (.of main_v22 : TRef sig ⟨S512x200x200, .f32⟩) main_call4.v4 mulf,
    TRef.ternary main_call4.v1 (.of main_v22 : TRef sig ⟨S512x200x200, .f32⟩) main_call4.v4 main_call4.call0.v0 select,
    TRef.ternary (.of main_v18 : TRef sig ⟨S512x200x200, .i1⟩) (.of main_v23 : TRef sig ⟨S512x200x200, .f32⟩) (.of main_v16 : TRef sig ⟨S512x200x200, .f32⟩) main_call5.v0 select ]

abbrev opsCode4 : List (HloOp τ sig (Elt F)) :=
  [ nullary main_c_5 (constantI S_ 32 4#32),
    unary main_c_5 main_v25 (broadcastInDim S512x200x200 ![] bcast_S_S512x200x200 : (⟨S_, .i32⟩ : BufTy).Contents (Elt F) → (⟨S512x200x200, .i32⟩ : BufTy).Contents (Elt F)),
    binary main_arg1 main_v25 main_v26 (cmpi .eq : (⟨S512x200x200, .i32⟩ : BufTy).Contents (Elt F) → (⟨S512x200x200, .i32⟩ : BufTy).Contents (Elt F) → (⟨S512x200x200, .i1⟩ : BufTy).Contents (Elt F)),
    unary main_arg5 main_v27 (broadcastInDim S1x1x128 ![2] bcast_S128_S1x1x128_2 : (⟨S128, .f32⟩ : BufTy).Contents (Elt F) → (⟨S1x1x128, .f32⟩ : BufTy).Contents (Elt F)),
    unary main_v27 main_v28 (broadcastInDim S512x200x128 ![0, 1, 2] bcast_S1x1x128_S512x200x128_0_1_2 : (⟨S1x1x128, .f32⟩ : BufTy).Contents (Elt F) → (⟨S512x200x128, .f32⟩ : BufTy).Contents (Elt F)),
    binary main_arg0 main_v28 main_v29 (mulf : (⟨S512x200x128, .f32⟩ : BufTy).Contents (Elt F) → (⟨S512x200x128, .f32⟩ : BufTy).Contents (Elt F) → (⟨S512x200x128, .f32⟩ : BufTy).Contents (Elt F)),
    binary main_v29 main_arg0 main_v30 ((fun l r => Host.dotGeneral dot_S512x200x128_S512x200x128_S512x200x200_2_2_1_1_0_0 none l r) : (⟨S512x200x128, .f32⟩ : BufTy).Contents (Elt F) → (⟨S512x200x128, .f32⟩ : BufTy).Contents (Elt F) → (⟨S512x200x200, .f32⟩ : BufTy).Contents (Elt F)),
    nullary main_cst_6 (constant S_ .f32 0x3E4CCCCD#32),
    TRef.nullary main_call6.cst (constant S_ .f32 0x00000000#32),
    TRef.unary main_call6.cst main_call6.v0 (broadcastInDim S512x200x200 ![] bcast_S_S512x200x200),
    TRef.binary (.of main_v30 : TRef sig ⟨S512x200x200, .f32⟩) main_call6.v0 main_call6.v1 (cmpf .oge),
    TRef.unary (.of main_cst_6 : TRef sig ⟨S_, .f32⟩) main_call6.v2 id,
    TRef.unary main_call6.v2 main_call6.v3 (broadcastInDim S512x200x200 ![] bcast_S_S512x200x200),
    TRef.binary main_call6.v3 (.of main_v30 : TRef sig ⟨S512x200x200, .f32⟩) main_call6.v4 mulf,
    TRef.ternary main_call6.v1 (.of main_v30 : TRef sig ⟨S512x200x200, .f32⟩) main_call6.v4 main_call6.call0.v0 select,
    TRef.ternary (.of main_v26 : TRef sig ⟨S512x200x200, .i1⟩) (.of main_v31 : TRef sig ⟨S512x200x200, .f32⟩) (.of main_v24 : TRef sig ⟨S512x200x200, .f32⟩) main_call7.v0 select ]

abbrev opsSoftmax : List (HloOp τ sig (Elt F)) :=
  [ nullary main_cst_7 (constant S_ .f32 0xFF800000#32),
    binary main_v32 main_cst_7 main_v33 ((fun x v => Host.reduce FloatOps.maximumf x v reducesTo_S512x200x200_S512x200_d2 h_S_) : (⟨S512x200x200, .f32⟩ : BufTy).Contents (Elt F) → (⟨S_, .f32⟩ : BufTy).Contents (Elt F) → (⟨S512x200, .f32⟩ : BufTy).Contents (Elt F)),
    nullary main_cst_8 (constant S_ .f32 0xFF800000#32),
    unary main_cst_8 main_v34 (broadcastInDim S512x200 ![] bcast_S_S512x200 : (⟨S_, .f32⟩ : BufTy).Contents (Elt F) → (⟨S512x200, .f32⟩ : BufTy).Contents (Elt F)),
    binary main_v34 main_v33 main_v35 (maximumf : (⟨S512x200, .f32⟩ : BufTy).Contents (Elt F) → (⟨S512x200, .f32⟩ : BufTy).Contents (Elt F) → (⟨S512x200, .f32⟩ : BufTy).Contents (Elt F)),
    unary main_v35 main_v36 (broadcastInDim S512x200x1 ![0, 1] bcast_S512x200_S512x200x1_0_1 : (⟨S512x200, .f32⟩ : BufTy).Contents (Elt F) → (⟨S512x200x1, .f32⟩ : BufTy).Contents (Elt F)),
    unary main_v36 main_v37 (broadcastInDim S512x200x200 ![0, 1, 2] bcast_S512x200x1_S512x200x200_0_1_2 : (⟨S512x200x1, .f32⟩ : BufTy).Contents (Elt F) → (⟨S512x200x200, .f32⟩ : BufTy).Contents (Elt F)),
    binary main_v32 main_v37 main_v38 (subf : (⟨S512x200x200, .f32⟩ : BufTy).Contents (Elt F) → (⟨S512x200x200, .f32⟩ : BufTy).Contents (Elt F) → (⟨S512x200x200, .f32⟩ : BufTy).Contents (Elt F)),
    unary main_v38 main_v39 (Host.exp : (⟨S512x200x200, .f32⟩ : BufTy).Contents (Elt F) → (⟨S512x200x200, .f32⟩ : BufTy).Contents (Elt F)),
    nullary main_cst_9 (constant S_ .f32 0x00000000#32),
    binary main_v39 main_cst_9 main_v40 ((fun x v => Host.reduceAdd x v reducesTo_S512x200x200_S512x200_d2 h_S_) : (⟨S512x200x200, .f32⟩ : BufTy).Contents (Elt F) → (⟨S_, .f32⟩ : BufTy).Contents (Elt F) → (⟨S512x200, .f32⟩ : BufTy).Contents (Elt F)),
    unary main_v40 main_v41 (broadcastInDim S512x200x1 ![0, 1] bcast_S512x200_S512x200x1_0_1 : (⟨S512x200, .f32⟩ : BufTy).Contents (Elt F) → (⟨S512x200x1, .f32⟩ : BufTy).Contents (Elt F)),
    unary main_v41 main_v42 (broadcastInDim S512x200x200 ![0, 1, 2] bcast_S512x200x1_S512x200x200_0_1_2 : (⟨S512x200x1, .f32⟩ : BufTy).Contents (Elt F) → (⟨S512x200x200, .f32⟩ : BufTy).Contents (Elt F)),
    binary main_v39 main_v42 main_v43 (Host.divf : (⟨S512x200x200, .f32⟩ : BufTy).Contents (Elt F) → (⟨S512x200x200, .f32⟩ : BufTy).Contents (Elt F) → (⟨S512x200x200, .f32⟩ : BufTy).Contents (Elt F)),
    binary main_v43 main_arg0 main_v44 ((fun l r => Host.dotGeneral dot_S512x200x200_S512x200x128_S512x200x128_2_1_1_2_0_0 none l r) : (⟨S512x200x200, .f32⟩ : BufTy).Contents (Elt F) → (⟨S512x200x128, .f32⟩ : BufTy).Contents (Elt F) → (⟨S512x200x128, .f32⟩ : BufTy).Contents (Elt F)) ]

/-- The line is its stretches in order. -/
theorem ops_split :
    (ops : List (HloOp τ sig (Elt F))) = opsFill ++ (opsCode1 ++ (opsCode2 ++ (opsCode3 ++ (opsCode4 ++ opsSoftmax)))) := rfl

/-! ## Each stretch read back, from an arbitrary valuation

Within a stretch the chain of results is short: the buffer read is found by computation (which operation writes it is
decided on the references), and the stages of the reference's term unfold to the operations' functions. -/

/-- The fill stretch leaves the large negative constant broadcast over the logits' shape. -/
theorem fill_out (V : Valuation τ sig (Elt F)) :
    after opsFill V (main_v0 : DevRef τ sig)
      = broadcastInDim S512x200x200 ![] bcast_S_S512x200x200 (constant S_ .f32 0xD9FFCB9E#32) := by
  simp only [after_cons, after_nil]
  rfl

set_option maxRecDepth 8192 in
/-- The stretch of relation code 1: the rectified scores under its weight vector where the code matches, the
    logits so far elsewhere. -/
theorem code1_out (V : Valuation τ sig (Elt F)) :
    after opsCode1 V (main_v8 : DevRef τ sig)
      = Term.pick (V (main_arg1 : DevRef τ sig)) 1#32
          (Term.leaky (Term.scores (V (main_arg0 : DevRef τ sig)) (V (main_arg2 : DevRef τ sig))) (constant S_ .f32 0x3E4CCCCD#32))
          (V (main_v0 : DevRef τ sig)) := by
  simp only [after_cons, after_nil]
  rfl

set_option maxRecDepth 8192 in
/-- The stretch of relation code 2: the rectified scores under its weight vector where the code matches, the
    logits so far elsewhere. -/
theorem code2_out (V : Valuation τ sig (Elt F)) :
    after opsCode2 V (main_v16 : DevRef τ sig)
      = Term.pick (V (main_arg1 : DevRef τ sig)) 2#32
          (Term.leaky (Term.scores (V (main_arg0 : DevRef τ sig)) (V (main_arg3 : DevRef τ sig))) (constant S_ .f32 0x3E4CCCCD#32))
          (V (main_v8 : DevRef τ sig)) := by
  simp only [after_cons, after_nil]
  rfl

set_option maxRecDepth 8192 in
/-- The stretch of relation code 3: the rectified scores under its weight vector where the code matches, the
    logits so far elsewhere. -/
theorem code3_out (V : Valuation τ sig (Elt F)) :
    after opsCode3 V (main_v24 : DevRef τ sig)
      = Term.pick (V (main_arg1 : DevRef τ sig)) 3#32
          (Term.leaky (Term.scores (V (main_arg0 : DevRef τ sig)) (V (main_arg4 : DevRef τ sig))) (constant S_ .f32 0x3E4CCCCD#32))
          (V (main_v16 : DevRef τ sig)) := by
  simp only [after_cons, after_nil]
  rfl

set_option maxRecDepth 8192 in
/-- The stretch of relation code 4: the rectified scores under its weight vector where the code matches, the
    logits so far elsewhere. -/
theorem code4_out (V : Valuation τ sig (Elt F)) :
    after opsCode4 V (main_v32 : DevRef τ sig)
      = Term.pick (V (main_arg1 : DevRef τ sig)) 4#32
          (Term.leaky (Term.scores (V (main_arg0 : DevRef τ sig)) (V (main_arg5 : DevRef τ sig))) (constant S_ .f32 0x3E4CCCCD#32))
          (V (main_v24 : DevRef τ sig)) := by
  simp only [after_cons, after_nil]
  rfl

/-- The last stretch: the rows of the logits shifted by their maxima, exponentiated, normalised by their sums, and the
    batched product with the features. Each operation's result is rewritten to its function of its operands; what is
    left is the two stages' definitions unfolded. -/
theorem softmax_out (V : Valuation τ sig (Elt F)) :
    after opsSoftmax V (main_v44 : DevRef τ sig)
      = Host.dotGeneral dot_S512x200x200_S512x200x128_S512x200x128_2_1_1_2_0_0 none
          (Term.normRows (Term.expRows (V (main_v32 : DevRef τ sig)))) (V (main_arg0 : DevRef τ sig)) := by
  after_results_simp
  unfold Term.normRows Term.expRows
  rfl

/-! No stretch writes an argument buffer. -/

theorem fill_arg0 (V : Valuation τ sig (Elt F)) :
    after opsFill V (main_arg0 : DevRef τ sig) = V (main_arg0 : DevRef τ sig) := by
  after_results_simp

theorem fill_arg1 (V : Valuation τ sig (Elt F)) :
    after opsFill V (main_arg1 : DevRef τ sig) = V (main_arg1 : DevRef τ sig) := by
  after_results_simp

theorem fill_arg2 (V : Valuation τ sig (Elt F)) :
    after opsFill V (main_arg2 : DevRef τ sig) = V (main_arg2 : DevRef τ sig) := by
  after_results_simp

theorem fill_arg3 (V : Valuation τ sig (Elt F)) :
    after opsFill V (main_arg3 : DevRef τ sig) = V (main_arg3 : DevRef τ sig) := by
  after_results_simp

theorem fill_arg4 (V : Valuation τ sig (Elt F)) :
    after opsFill V (main_arg4 : DevRef τ sig) = V (main_arg4 : DevRef τ sig) := by
  after_results_simp

theorem fill_arg5 (V : Valuation τ sig (Elt F)) :
    after opsFill V (main_arg5 : DevRef τ sig) = V (main_arg5 : DevRef τ sig) := by
  after_results_simp

theorem code1_arg0 (V : Valuation τ sig (Elt F)) :
    after opsCode1 V (main_arg0 : DevRef τ sig) = V (main_arg0 : DevRef τ sig) := by
  after_results_simp

theorem code1_arg1 (V : Valuation τ sig (Elt F)) :
    after opsCode1 V (main_arg1 : DevRef τ sig) = V (main_arg1 : DevRef τ sig) := by
  after_results_simp

theorem code1_arg2 (V : Valuation τ sig (Elt F)) :
    after opsCode1 V (main_arg2 : DevRef τ sig) = V (main_arg2 : DevRef τ sig) := by
  after_results_simp

theorem code1_arg3 (V : Valuation τ sig (Elt F)) :
    after opsCode1 V (main_arg3 : DevRef τ sig) = V (main_arg3 : DevRef τ sig) := by
  after_results_simp

theorem code1_arg4 (V : Valuation τ sig (Elt F)) :
    after opsCode1 V (main_arg4 : DevRef τ sig) = V (main_arg4 : DevRef τ sig) := by
  after_results_simp

theorem code1_arg5 (V : Valuation τ sig (Elt F)) :
    after opsCode1 V (main_arg5 : DevRef τ sig) = V (main_arg5 : DevRef τ sig) := by
  after_results_simp

theorem code2_arg0 (V : Valuation τ sig (Elt F)) :
    after opsCode2 V (main_arg0 : DevRef τ sig) = V (main_arg0 : DevRef τ sig) := by
  after_results_simp

theorem code2_arg1 (V : Valuation τ sig (Elt F)) :
    after opsCode2 V (main_arg1 : DevRef τ sig) = V (main_arg1 : DevRef τ sig) := by
  after_results_simp

theorem code2_arg2 (V : Valuation τ sig (Elt F)) :
    after opsCode2 V (main_arg2 : DevRef τ sig) = V (main_arg2 : DevRef τ sig) := by
  after_results_simp

theorem code2_arg3 (V : Valuation τ sig (Elt F)) :
    after opsCode2 V (main_arg3 : DevRef τ sig) = V (main_arg3 : DevRef τ sig) := by
  after_results_simp

theorem code2_arg4 (V : Valuation τ sig (Elt F)) :
    after opsCode2 V (main_arg4 : DevRef τ sig) = V (main_arg4 : DevRef τ sig) := by
  after_results_simp

theorem code2_arg5 (V : Valuation τ sig (Elt F)) :
    after opsCode2 V (main_arg5 : DevRef τ sig) = V (main_arg5 : DevRef τ sig) := by
  after_results_simp

theorem code3_arg0 (V : Valuation τ sig (Elt F)) :
    after opsCode3 V (main_arg0 : DevRef τ sig) = V (main_arg0 : DevRef τ sig) := by
  after_results_simp

theorem code3_arg1 (V : Valuation τ sig (Elt F)) :
    after opsCode3 V (main_arg1 : DevRef τ sig) = V (main_arg1 : DevRef τ sig) := by
  after_results_simp

theorem code3_arg2 (V : Valuation τ sig (Elt F)) :
    after opsCode3 V (main_arg2 : DevRef τ sig) = V (main_arg2 : DevRef τ sig) := by
  after_results_simp

theorem code3_arg3 (V : Valuation τ sig (Elt F)) :
    after opsCode3 V (main_arg3 : DevRef τ sig) = V (main_arg3 : DevRef τ sig) := by
  after_results_simp

theorem code3_arg4 (V : Valuation τ sig (Elt F)) :
    after opsCode3 V (main_arg4 : DevRef τ sig) = V (main_arg4 : DevRef τ sig) := by
  after_results_simp

theorem code3_arg5 (V : Valuation τ sig (Elt F)) :
    after opsCode3 V (main_arg5 : DevRef τ sig) = V (main_arg5 : DevRef τ sig) := by
  after_results_simp

theorem code4_arg0 (V : Valuation τ sig (Elt F)) :
    after opsCode4 V (main_arg0 : DevRef τ sig) = V (main_arg0 : DevRef τ sig) := by
  after_results_simp

theorem code4_arg1 (V : Valuation τ sig (Elt F)) :
    after opsCode4 V (main_arg1 : DevRef τ sig) = V (main_arg1 : DevRef τ sig) := by
  after_results_simp

theorem code4_arg2 (V : Valuation τ sig (Elt F)) :
    after opsCode4 V (main_arg2 : DevRef τ sig) = V (main_arg2 : DevRef τ sig) := by
  after_results_simp

theorem code4_arg3 (V : Valuation τ sig (Elt F)) :
    after opsCode4 V (main_arg3 : DevRef τ sig) = V (main_arg3 : DevRef τ sig) := by
  after_results_simp

theorem code4_arg4 (V : Valuation τ sig (Elt F)) :
    after opsCode4 V (main_arg4 : DevRef τ sig) = V (main_arg4 : DevRef τ sig) := by
  after_results_simp

theorem code4_arg5 (V : Valuation τ sig (Elt F)) :
    after opsCode4 V (main_arg5 : DevRef τ sig) = V (main_arg5 : DevRef τ sig) := by
  after_results_simp

theorem softmax_arg0 (V : Valuation τ sig (Elt F)) :
    after opsSoftmax V (main_arg0 : DevRef τ sig) = V (main_arg0 : DevRef τ sig) := by
  after_results_simp

theorem softmax_arg1 (V : Valuation τ sig (Elt F)) :
    after opsSoftmax V (main_arg1 : DevRef τ sig) = V (main_arg1 : DevRef τ sig) := by
  after_results_simp

theorem softmax_arg2 (V : Valuation τ sig (Elt F)) :
    after opsSoftmax V (main_arg2 : DevRef τ sig) = V (main_arg2 : DevRef τ sig) := by
  after_results_simp

theorem softmax_arg3 (V : Valuation τ sig (Elt F)) :
    after opsSoftmax V (main_arg3 : DevRef τ sig) = V (main_arg3 : DevRef τ sig) := by
  after_results_simp

theorem softmax_arg4 (V : Valuation τ sig (Elt F)) :
    after opsSoftmax V (main_arg4 : DevRef τ sig) = V (main_arg4 : DevRef τ sig) := by
  after_results_simp

theorem softmax_arg5 (V : Valuation τ sig (Elt F)) :
    after opsSoftmax V (main_arg5 : DevRef τ sig) = V (main_arg5 : DevRef τ sig) := by
  after_results_simp

/-! ## The readings composed -/

/-- The result buffer at the end of the whole line is the reference's term of the arguments as launched: the last
    stretch reads the logits' buffer and the features, each earlier stretch the relation codes, the features, its own
    weight vector and the logits so far, and no stretch writes an argument. -/
theorem out_eq (V : Valuation τ sig (Elt F)) :
    after ops V (main_v44 : DevRef τ sig)
      = Term.result (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split]
  simp only [after_append]
  rw [softmax_out, code4_out, code3_out, code2_out, code1_out, fill_out]
  rw [code4_arg0]
  rw [code3_arg0, code3_arg1, code3_arg5]
  rw [code2_arg0, code2_arg1, code2_arg5, code2_arg4]
  rw [code1_arg0, code1_arg1, code1_arg5, code1_arg4, code1_arg3]
  rw [fill_arg0, fill_arg1, fill_arg5, fill_arg4, fill_arg3, fill_arg2]
  rfl

theorem arg0_eq (V : Valuation τ sig (Elt F)) :
    after ops V (main_arg0 : DevRef τ sig) = V (main_arg0 : DevRef τ sig) := by
  rw [ops_split]
  simp only [after_append]
  rw [softmax_arg0, code4_arg0, code3_arg0, code2_arg0, code1_arg0, fill_arg0]

theorem arg1_eq (V : Valuation τ sig (Elt F)) :
    after ops V (main_arg1 : DevRef τ sig) = V (main_arg1 : DevRef τ sig) := by
  rw [ops_split]
  simp only [after_append]
  rw [softmax_arg1, code4_arg1, code3_arg1, code2_arg1, code1_arg1, fill_arg1]

theorem arg2_eq (V : Valuation τ sig (Elt F)) :
    after ops V (main_arg2 : DevRef τ sig) = V (main_arg2 : DevRef τ sig) := by
  rw [ops_split]
  simp only [after_append]
  rw [softmax_arg2, code4_arg2, code3_arg2, code2_arg2, code1_arg2, fill_arg2]

theorem arg3_eq (V : Valuation τ sig (Elt F)) :
    after ops V (main_arg3 : DevRef τ sig) = V (main_arg3 : DevRef τ sig) := by
  rw [ops_split]
  simp only [after_append]
  rw [softmax_arg3, code4_arg3, code3_arg3, code2_arg3, code1_arg3, fill_arg3]

theorem arg4_eq (V : Valuation τ sig (Elt F)) :
    after ops V (main_arg4 : DevRef τ sig) = V (main_arg4 : DevRef τ sig) := by
  rw [ops_split]
  simp only [after_append]
  rw [softmax_arg4, code4_arg4, code3_arg4, code2_arg4, code1_arg4, fill_arg4]

theorem arg5_eq (V : Valuation τ sig (Elt F)) :
    after ops V (main_arg5 : DevRef τ sig) = V (main_arg5 : DevRef τ sig) := by
  rw [ops_split]
  simp only [after_append]
  rw [softmax_arg5, code4_arg5, code3_arg5, code2_arg5, code1_arg5, fill_arg5]

/-- On every device, from any memory with zero counters: every weakly fair execution of the reference's program
    terminates with its result at `Term.result` of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
        = Term.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v44).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.RefValue.lean ====
/-
  The reference's result term, read at an index, is the attention output of that index's batch member.

  Each stage of the reference's term is read at one index and found to be the specification's scalar formula: the
  weight vector spread over the feature array reads the weight of the lane; the batched scores are the bilinear
  sums; the rectifier and the relation-code selections act entry by entry; the row maximum is a fold of `max` over
  the row and the row sum a sum over the row, each spread back along the row; and the final batched product is the
  weighted sum of the feature rows.
-/
import proofs.«124925_j68453188764260_1_alg».proof.Proof.RefTerm
import proofs.«124925_j68453188764260_1_alg».proof.Proof.Spec
import proofs.«124925_j68453188764260_1_alg».proof.Proof.LibDotBatchedNT
import proofs.«124925_j68453188764260_1_alg».proof.Proof.LibBatchedProducts
import Idealize.ShloMosaic.Lib.IdealHost
import Idealize.ShloMosaic.Lib.Pipeline.Value
import Idealize.ShloMosaic.Lib.ValueLayout

noncomputable section

namespace Cert.ReferenceIdeal.TermValue

open Cert.ReferenceIdeal Cert.ReferenceIdeal.Gen Cert.ReferenceIdeal.Term Idealize.ShloMosaic Idealize.ShloMosaic.ValueIdx

/-- The weight vector laid along the lanes and spread over every batch member and node reads, at `(b, n, e)`, the
    weight of lane `e`. -/
theorem weightRows_apply {α : Type} (a : S128.Idx → α) (b : Fin 512) (n : Fin 200) (e : Fin 128) :
    broadcastInDim S512x200x128 ![0, 1, 2] bcast_S1x1x128_S512x200x128_0_1_2
      (broadcastInDim S1x1x128 ![2] bcast_S128_S1x1x128_2 a) (ix3 b n e) = a (ix1 e) := by
  refine (broadcastInDim_apply ![0, 1, 2] bcast_S1x1x128_S512x200x128_0_1_2 _ (ix3 b n e)
    (ix3 (0 : Fin 1) (0 : Fin 1) e) fun ax => ?_).trans ?_
  · match ax with
    | ⟨0, _⟩ => rfl
    | ⟨1, _⟩ => rfl
    | ⟨2, _⟩ => rfl
  · refine broadcastInDim_apply ![2] bcast_S128_S1x1x128_2 a _ (ix1 e) fun ax => ?_
    match ax with
    | ⟨0, _⟩ => rfl

/-- The printed dimension numbers of the score product are "rows against rows within each batch member". -/
theorem scoreDims_eq : dot_S512x200x128_S512x200x128_S512x200x200_2_2_1_1_0_0
    = Cert.LibDotBatchedNT.dims dot_S512x200x128_S512x200x128_S512x200x200_2_2_1_1_0_0_wf := rfl

/-- Entry `(b, n, m)` of the batched scores is the bilinear score of the pair `(n, m)` in batch member `b`. -/
theorem scores_apply (h : FVec Ideal S512x200x128 .f32) (a : FVec Ideal S128 .f32) (b : Fin 512) (n m : Fin 200) :
    scores (F := Ideal) h a (ix3 b n m)
      = Cert.RelAttn.score (fun e => a (ix1 e)) (fun r e => h (ix3 b r e)) n m := by
  unfold scores Cert.RelAttn.score
  rw [scoreDims_eq]
  refine (Cert.LibDotBatchedNT.dotGeneral_apply _ none _ h b n m).trans ?_
  refine Finset.sum_congr rfl fun e _ => ?_
  rw [mulf_apply, weightRows_apply]

/-- The rectifier acts entry by entry. -/
theorem leaky_apply (x : FVec Ideal S512x200x200 .f32) (i : S512x200x200.Idx) :
    leaky (F := Ideal) x (constant S_ .f32 0x3E4CCCCD#32) i = Cert.RelAttn.lrelu (x i) := rfl

/-- The selection by relation code acts entry by entry. -/
theorem pick_apply (adj : IVec S512x200x200 32) (k : BitVec 32) (s prev : FVec Ideal S512x200x200 .f32)
    (i : S512x200x200.Idx) :
    pick (F := Ideal) adj k s prev i = Scalar.select (IntOp.cmpi .eq (adj i) k) (s i) (prev i) := rfl

/-- Entry `(b, n, m)` of the logits is the logit of the pair `(n, m)` in batch member `b`. -/
theorem logits_apply (h : FVec Ideal S512x200x128 .f32) (adj : IVec S512x200x200 32) (a0 a1 a2 a3 : FVec Ideal S128 .f32)
    (b : Fin 512) (n m : Fin 200) :
    logits (F := Ideal) h adj a0 a1 a2 a3 (ix3 b n m)
      = Cert.RelAttn.logit (fun e => a0 (ix1 e)) (fun e => a1 (ix1 e)) (fun e => a2 (ix1 e)) (fun e => a3 (ix1 e))
          (fun r e => h (ix3 b r e)) (fun r s => adj (ix3 b r s)) n m := by
  unfold logits Cert.RelAttn.logit
  rw [pick_apply, pick_apply, pick_apply, pick_apply, leaky_apply, leaky_apply, leaky_apply, leaky_apply,
    scores_apply, scores_apply, scores_apply, scores_apply]
  rfl

/-- A per-row array given a unit lane axis and spread along the row reads, at `(b, n, m)`, its entry `(b, n)`. -/
theorem alongRow_apply {α : Type} (y : S512x200.Idx → α) (b : Fin 512) (n m : Fin 200) :
    broadcastInDim S512x200x200 ![0, 1, 2] bcast_S512x200x1_S512x200x200_0_1_2
      (broadcastInDim S512x200x1 ![0, 1] bcast_S512x200_S512x200x1_0_1 y) (ix3 b n m) = y (ix2 b n) := by
  refine (broadcastInDim_apply ![0, 1, 2] bcast_S512x200x1_S512x200x200_0_1_2 _ (ix3 b n m)
    (ix3 b n (0 : Fin 1)) fun ax => ?_).trans ?_
  · match ax with
    | ⟨0, _⟩ => rfl
    | ⟨1, _⟩ => rfl
    | ⟨2, _⟩ => rfl
  · refine broadcastInDim_apply ![0, 1] bcast_S512x200_S512x200x1_0_1 y _ (ix2 b n) fun ax => ?_
    match ax with
    | ⟨0, _⟩ => rfl
    | ⟨1, _⟩ => rfl

/-- The row maximum at `(b, n)`: the fold of `max`, from minus infinity, over the row's entries. -/
theorem rowFold_apply (x : FVec Ideal S512x200x200 .f32) (b : Fin 512) (n : Fin 200) :
    Host.reduce FloatOps.maximumf x (constant (F := Ideal) S_ .f32 0xFF800000#32)
        reducesTo_S512x200x200_S512x200_d2 h_S_ (ix2 b n)
      = (Finset.univ : Finset (Fin 200)).fold max Cert.RelAttn.negInf (fun k => x (ix3 b n k)) := by
  have hr : S512x200x200.Reduces [2] S512x200 := by decide
  refine (Host.reduce_eq_fold_single FloatOps.maximumf x _ reducesTo_S512x200x200_S512x200_d2 hr h_S_ (ix2 b n)).trans ?_
  refine congrArg (Finset.fold max Cert.RelAttn.negInf · Finset.univ)
    (funext fun k => congrArg x (funext fun d => Fin.ext ?_))
  match d with
  | ⟨0, _⟩ => rfl
  | ⟨1, _⟩ => rfl
  | ⟨2, _⟩ => rfl

/-- Entry `(b, n, m)` of the shifted exponentials is the exponential of the entry less its row's maximum. -/
theorem expRows_apply (x : FVec Ideal S512x200x200 .f32) (b : Fin 512) (n m : Fin 200) :
    expRows (F := Ideal) x (ix3 b n m) = Cert.RelAttn.expo (fun k => x (ix3 b n k)) m := by
  unfold expRows Cert.RelAttn.expo Cert.RelAttn.rowMax
  show Ideal.exp (x (ix3 b n m) - _) = _
  rw [alongRow_apply, maximumf_apply, rowFold_apply]
  rfl

/-- The row sum at `(b, n)`: the sum of the row's entries. -/
theorem rowSum_apply (e : FVec Ideal S512x200x200 .f32) (b : Fin 512) (n : Fin 200) :
    Host.reduceAdd e (constant (F := Ideal) S_ .f32 0x00000000#32) reducesTo_S512x200x200_S512x200_d2 h_S_ (ix2 b n)
      = ∑ k : Fin 200, e (ix3 b n k) := by
  have hr : S512x200x200.Reduces [2] S512x200 := by decide
  rw [hostReduceAdd_apply, Ideal.hostReduceAdd_single reducesTo_S512x200x200_S512x200_d2 hr, constant_apply,
    Ideal.ofBits_zero_f32, zero_add]
  refine Finset.sum_congr rfl fun k _ => congrArg e (funext fun d => Fin.ext ?_)
  match d with
  | ⟨0, _⟩ => rfl
  | ⟨1, _⟩ => rfl
  | ⟨2, _⟩ => rfl

/-- Entry `(b, n, m)` of the normalised rows is the entry over its row's sum. -/
theorem normRows_apply (e : FVec Ideal S512x200x200 .f32) (b : Fin 512) (n m : Fin 200) :
    normRows (F := Ideal) e (ix3 b n m) = Ideal.div (e (ix3 b n m)) (∑ k : Fin 200, e (ix3 b n k)) := by
  unfold normRows
  rw [hostDivf_apply, alongRow_apply, rowSum_apply]

/-- Entry `(b, n, m)` of the attention weights is the weight of column `m` in row `n` of batch member `b`'s logits. -/
theorem weights_apply (L : FVec Ideal S512x200x200 .f32) (b : Fin 512) (n m : Fin 200) :
    normRows (F := Ideal) (expRows L) (ix3 b n m) = Cert.RelAttn.weight (fun k => L (ix3 b n k)) m := by
  rw [normRows_apply, expRows_apply]
  unfold Cert.RelAttn.weight
  exact congrArg (Ideal.div _) (Finset.sum_congr rfl fun k _ => expRows_apply L b n k)

/-- The printed dimension numbers of the last product are "rows against columns within each batch member". -/
theorem resultDims_eq : dot_S512x200x200_S512x200x128_S512x200x128_2_1_1_2_0_0
    = Cert.LibBatchedProducts.dimsNN dot_S512x200x200_S512x200x128_S512x200x128_2_1_1_2_0_0_wf := rfl

/-- Entry `(b, n, d)` of the reference's result is the attention output of batch member `b`. -/
theorem result_apply (h : FVec Ideal S512x200x128 .f32) (adj : IVec S512x200x200 32) (a0 a1 a2 a3 : FVec Ideal S128 .f32)
    (b : Fin 512) (n : Fin 200) (d : Fin 128) :
    result (F := Ideal) h adj a0 a1 a2 a3 (ix3 b n d) = Cert.RelAttn.attn (B := 512) h adj a0 a1 a2 a3 b n d := by
  unfold result Cert.RelAttn.attn Cert.RelAttn.out
  rw [resultDims_eq]
  refine (Cert.LibBatchedProducts.dotGeneralNN_apply _ none _ h b n d).trans ?_
  refine Finset.sum_congr rfl fun m _ => ?_
  rw [weights_apply]
  exact congrArg (fun L => Cert.RelAttn.weight L m * h (ix3 b m d))
    (funext fun k => logits_apply h adj a0 a1 a2 a3 b n k)

/-- So the reference's result is the whole-array attention output. -/
theorem result_eq (h : FVec Ideal S512x200x128 .f32) (adj : IVec S512x200x200 32) (a0 a1 a2 a3 : FVec Ideal S128 .f32) :
    result (F := Ideal) h adj a0 a1 a2 a3 = Cert.RelAttn.whole h adj a0 a1 a2 a3 := by
  funext i
  obtain ⟨b, n, d, rfl⟩ : ∃ (b : Fin 512) (n : Fin 200) (d : Fin 128), i = ix3 b n d := ⟨i 0, i 1, i 2, eq_ix3 i⟩
  exact result_apply h adj a0 a1 a2 a3 b n d

end Cert.ReferenceIdeal.TermValue

end
-- ==== Proof.lean ====
/-
  Relation-typed neighbourhood attention: a blocked kernel against its whole-array reference.

  Per batch member, for each of four weight vectors the bilinear scores of all ordered pairs of nodes pass through a
  leaky rectifier; a pair's logit is the rectified score under the weight vector its relation code selects (a large
  negative number under no code); each row of logits is shifted by its maximum, exponentiated and normalised; the
  output is the weighted sum of the feature rows.  The kernel computes this for 16 batch members per grid point,
  rounding to a shorter float format on the way into its matrix products; the reference computes it for all 512 at once.
  On the exact extended reals a change of format is the identity, a matrix product into a zero accumulator and the
  host's product are the same finite sum, and a lane reduction and the host's reduction are the same sum or maximum
  of a row; so both programs compute, entry by entry, the one function `Cert.RelAttn.whole` of the argument arrays
  (Proof/Spec.lean).  No finiteness of the inputs is used: the two sides are the same composition of the same
  operations on every extended real.

  The kernel's side: the value its body stores, read at an index, is the attention output of the block's batch member
  (Proof/KernelPayload.lean); block `t` of the output array is what point `t` wrote, the blocks cover the array, so
  the array after the run is `whole` of the arguments (Proof/KernelArray.lean).  The reference's side: its run ends
  with the result buffer at the composed term of its operations (Proof/RefRun.lean over Proof/RefTerm.lean), and that
  term read at an index is the same attention output (Proof/RefValue.lean).  The three frames are the generated frame
  runs and the reference's run with the result dropped; nothing was rewritten by the idealisation, so there is
  nothing to preserve.
-/
import proofs.«124925_j68453188764260_1_alg».proof.Defs
import proofs.«124925_j68453188764260_1_alg».proof.Proof.Gen.Kernel
import proofs.«124925_j68453188764260_1_alg».proof.Proof.Gen.Kernel.Skeleton
import proofs.«124925_j68453188764260_1_alg».proof.Proof.Gen.Kernel.Launch
import proofs.«124925_j68453188764260_1_alg».proof.Proof.Gen.Kernel.Points
import proofs.«124925_j68453188764260_1_alg».proof.Proof.Gen.Kernel.Frame
import proofs.«124925_j68453188764260_1_alg».proof.Proof.Gen.KernelIdeal
import proofs.«124925_j68453188764260_1_alg».proof.Proof.Gen.KernelIdeal.Skeleton
import proofs.«124925_j68453188764260_1_alg».proof.Proof.Gen.KernelIdeal.Launch
import proofs.«124925_j68453188764260_1_alg».proof.Proof.Gen.KernelIdeal.Points
import proofs.«124925_j68453188764260_1_alg».proof.Proof.Gen.KernelIdeal.Frame
import proofs.«124925_j68453188764260_1_alg».proof.Proof.Gen.KernelIdeal.Value
import proofs.«124925_j68453188764260_1_alg».proof.Proof.Gen.ReferenceIdeal
import proofs.«124925_j68453188764260_1_alg».proof.Proof.Gen.Pre_finite_inputs
import proofs.«124925_j68453188764260_1_alg».proof.Proof.KernelArray
import proofs.«124925_j68453188764260_1_alg».proof.Proof.RefRun
import proofs.«124925_j68453188764260_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealised kernel runs and leaves its arguments as launched. -/
theorem frame_kernelIdeal : Cert.frame_KernelIdeal := fun m ρ _ => Cert.KernelIdeal.Gen.frame m ρ

/-- The reference runs and leaves its arguments as launched: its run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealisation rewrote no operation. -/
theorem preserves : Cert.preserves_Kernel_KernelIdeal := trivial

/-- From memories agreeing on the arguments both programs end with the result at `Cert.RelAttn.whole` of the
    arguments: the kernel's output array block by block, the reference's result term index by index. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  exact Cert.ReferenceIdeal.TermValue.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
